-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x32x32x128 : Shape := ⟨5, ![8, 64, 32, 32, 128]⟩
abbrev S_ : Shape := ⟨0, ![]⟩

class Facts : Prop where
  bcast_S_S8x64x32x32x128 : S_.BroadcastsInDim S8x64x32x32x128 (![] : Fin 0 → Fin S8x64x32x32x128.rank)
  reducesTo_S8x64x32x32x128_S_d0_1_2_3_4 : S8x64x32x32x128.ReducesTo [0, 1, 2, 3, 4] S_
  h_S_ : 0 < S_.numel

variable [Facts]

def fn {F : FTy → Type} [FloatOps F] (main_arg0 : FVec F S8x64x32x32x128 .f32) : IVec S_ 1 :=
  let main_v0 : FVec F S8x64x32x32x128 .f32 := Host.absf main_arg0
  let main_cst : FVec F S_ .f32 := constant S_ .f32 0x7F800000#32
  let main_v1 : FVec F S8x64x32x32x128 .f32 := broadcastInDim S8x64x32x32x128 ![] bcast_S_S8x64x32x32x128 main_cst
  let main_v2 : IVec S8x64x32x32x128 1 := cmpf .olt main_v0 main_v1
  let main_c : IVec S_ 1 := constantI S_ 1 1#1
  let main_v3 : IVec S_ 1 := (fun x v => Host.reduce IntOp.andi x v reducesTo_S8x64x32x32x128_S_d0_1_2_3_4 h_S_) main_v2 main_c
  main_v3
-- ==== Kernel.lean ====
abbrev S8x64x32x32x128 : Shape := ⟨5, ![8, 64, 32, 32, 128]⟩
abbrev S8x65536x128 : Shape := ⟨3, ![8, 65536, 128]⟩
abbrev S8x128x128 : Shape := ⟨3, ![8, 128, 128]⟩
abbrev S1x8192x128 : Shape := ⟨3, ![1, 8192, 128]⟩
abbrev S1x128x128 : Shape := ⟨3, ![1, 128, 128]⟩
abbrev S128x128 : Shape := ⟨2, ![128, 128]⟩
abbrev S8192x128 : Shape := ⟨2, ![8192, 128]⟩
abbrev S_ : Shape := ⟨0, ![]⟩
abbrev S8x128 : Shape := ⟨2, ![8, 128]⟩
abbrev S8x128x1 : Shape := ⟨3, ![8, 128, 1]⟩

abbrev nBuf : Space → Nat
  | .hbm => 19
  | .vmem => 11
  | .smem => 0
  | _ => 0

abbrev bufTy : (tb : Table) → Fin (tcTables nBuf tb) → BufTy
  | .hbm, ⟨0, _⟩ => ⟨S8x64x32x32x128, .f32⟩
  | .hbm, ⟨1, _⟩ => ⟨S8x65536x128, .f32⟩
  | .hbm, ⟨2, _⟩ => ⟨S8x128x128, .f32⟩
  | .hbm, ⟨3, _⟩ => ⟨S_, .f32⟩
  | .hbm, ⟨4, _⟩ => ⟨S8x128, .f32⟩
  | .hbm, ⟨5, _⟩ => ⟨S_, .f32⟩
  | .hbm, ⟨6, _⟩ => ⟨S8x128, .f32⟩
  | .hbm, ⟨7, _⟩ => ⟨S8x128, .f32⟩
  | .hbm, ⟨8, _⟩ => ⟨S8x128x1, .f32⟩
  | .hbm, ⟨9, _⟩ => ⟨S8x128x128, .f32⟩
  | .hbm, ⟨10, _⟩ => ⟨S8x128x128, .f32⟩
  | .hbm, ⟨11, _⟩ => ⟨S8x128x128, .f32⟩
  | .hbm, ⟨12, _⟩ => ⟨S_, .f32⟩
  | .hbm, ⟨13, _⟩ => ⟨S8x128, .f32⟩
  | .hbm, ⟨14, _⟩ => ⟨S8x128x1, .f32⟩
  | .hbm, ⟨15, _⟩ => ⟨S8x128x128, .f32⟩
  | .hbm, ⟨16, _⟩ => ⟨S8x128x128, .f32⟩
  | .hbm, ⟨17, _⟩ => ⟨S8x65536x128, .f32⟩
  | .hbm, ⟨18, _⟩ => ⟨S8x64x32x32x128, .f32⟩
  | .local _ .vmem, ⟨0, _⟩ => ⟨S1x8192x128, .f32⟩
  | .local _ .vmem, ⟨1, _⟩ => ⟨S1x8192x128, .f32⟩
  | .local _ .vmem, ⟨2, _⟩ => ⟨S1x128x128, .f32⟩
  | .local _ .vmem, ⟨3, _⟩ => ⟨S1x128x128, .f32⟩
  | .local _ .vmem, ⟨4, _⟩ => ⟨S128x128, .f32⟩
  | .local _ .vmem, ⟨5, _⟩ => ⟨S1x8192x128, .f32⟩
  | .local _ .vmem, ⟨6, _⟩ => ⟨S1x8192x128, .f32⟩
  | .local _ .vmem, ⟨7, _⟩ => ⟨S1x128x128, .f32⟩
  | .local _ .vmem, ⟨8, _⟩ => ⟨S1x128x128, .f32⟩
  | .local _ .vmem, ⟨9, _⟩ => ⟨S1x8192x128, .f32⟩
  | .local _ .vmem, ⟨10, _⟩ => ⟨S1x8192x128, .f32⟩
  | _, _ => ⟨S8x64x32x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_7 : BitVec 32 := 0#32
  let v14 : BitVec 1 := Scalar.cmpi .ne v13 c0_i32_7
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S8x64x32x32x128_S8x65536x128 : S8x64x32x32x128.ShapeCasts S8x65536x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  reducesTo_S8x128x128_S8x128_d2 : S8x128x128.ReducesTo [2] S8x128
  h_S_ : 0 < S_.numel
  bcast_S_S8x128 : S_.BroadcastsInDim S8x128 (![] : Fin 0 → Fin S8x128.rank)
  bcast_S8x128_S8x128x1_0_1 : S8x128.BroadcastsInDim S8x128x1 (![0, 1] : Fin 2 → Fin S8x128x1.rank)
  bcast_S8x128x1_S8x128x128_0_1_2 : S8x128x1.BroadcastsInDim S8x128x128 (![0, 1, 2] : Fin 3 → Fin S8x128x128.rank)
  shapeCasts_S8192x128_S1x8192x128 : S8192x128.ShapeCasts S1x8192x128
  shapeCasts_S8x65536x128_S8x64x32x32x128 : S8x65536x128.ShapeCasts S8x64x32x32x128
  dot_S8192x128_S8192x128_S128x128_0_0_1_1_n_n_wf : DotDims.WF S8192x128 S8192x128 S128x128 [0] [0] [1] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S8x65536x128.size a
  hwx0_0 : ∀ i : grid0.Coords, EltTy.bits .f32 = 32 ∨ (Rect.block (s := S8x65536x128) S1x8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S8x128x128.size a
  hwx0_1 : ∀ i : grid0.Coords, EltTy.bits .f32 = 32 ∨ (Rect.block (s := S8x128x128) S1x128x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8192x128.size a ≤ S8x65536x128.size a
  hwx1_0 : ∀ i : grid1.Coords, EltTy.bits .f32 = 32 ∨ (Rect.block (s := S8x65536x128) S1x8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128.size a ≤ S8x128x128.size a
  hwx1_1 : ∀ i : grid1.Coords, EltTy.bits .f32 = 32 ∨ (Rect.block (s := S8x128x128) S1x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8192x128.size a ≤ S8x65536x128.size a
  hwx1_2 : ∀ i : grid1.Coords, EltTy.bits .f32 = 32 ∨ (Rect.block (s := S8x65536x128) S1x8192x128.size (cc1_transform_2 i) (hinb1_2 i)).WholeWords (EltTy.packing .f32)

variable [Facts₀]

def dot_S8192x128_S8192x128_S128x128_0_0_1_1_n_n : DotDims S8192x128 S8192x128 S128x128 where
  lhsContracting := [0]
  rhsContracting := [0]
  lhsNonContracting := [1]
  rhsNonContracting := [1]
  lhsBatch := []
  rhsBatch := []
  wf := dot_S8192x128_S8192x128_S128x128_0_0_1_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v0) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v0) S1x8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x8192x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x64x32x32x128 : Shape := ⟨5, ![8, 64, 32, 32, 128]⟩
abbrev S8x65536x128 : Shape := ⟨3, ![8, 65536, 128]⟩
abbrev S8x128x128 : Shape := ⟨3, ![8, 128, 128]⟩
abbrev S_ : Shape := ⟨0, ![]⟩
abbrev S8x128 : Shape := ⟨2, ![8, 128]⟩
abbrev S8x128x1 : Shape := ⟨3, ![8, 128, 1]⟩

abbrev nBuf : Space → Nat
  | .hbm => 19
  | .vmem => 0
  | .smem => 0
  | _ => 0

abbrev bufTy : (tb : Table) → Fin (tcTables nBuf tb) → BufTy
  | .hbm, ⟨0, _⟩ => ⟨S8x64x32x32x128, .f32⟩
  | .hbm, ⟨1, _⟩ => ⟨S8x65536x128, .f32⟩
  | .hbm, ⟨2, _⟩ => ⟨S8x128x128, .f32⟩
  | .hbm, ⟨3, _⟩ => ⟨S_, .f32⟩
  | .hbm, ⟨4, _⟩ => ⟨S8x128, .f32⟩
  | .hbm, ⟨5, _⟩ => ⟨S_, .f32⟩
  | .hbm, ⟨6, _⟩ => ⟨S8x128, .f32⟩
  | .hbm, ⟨7, _⟩ => ⟨S8x128, .f32⟩
  | .hbm, ⟨8, _⟩ => ⟨S8x128x1, .f32⟩
  | .hbm, ⟨9, _⟩ => ⟨S8x128x128, .f32⟩
  | .hbm, ⟨10, _⟩ => ⟨S8x128x128, .f32⟩
  | .hbm, ⟨11, _⟩ => ⟨S8x128x128, .f32⟩
  | .hbm, ⟨12, _⟩ => ⟨S_, .f32⟩
  | .hbm, ⟨13, _⟩ => ⟨S8x128, .f32⟩
  | .hbm, ⟨14, _⟩ => ⟨S8x128x1, .f32⟩
  | .hbm, ⟨15, _⟩ => ⟨S8x128x128, .f32⟩
  | .hbm, ⟨16, _⟩ => ⟨S8x128x128, .f32⟩
  | .hbm, ⟨17, _⟩ => ⟨S8x65536x128, .f32⟩
  | .hbm, ⟨18, _⟩ => ⟨S8x64x32x32x128, .f32⟩
  | _, _ => ⟨S8x64x32x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  shapeCasts_S8x64x32x32x128_S8x65536x128 : S8x64x32x32x128.ShapeCasts S8x65536x128
  reducesTo_S8x128x128_S8x128_d2 : S8x128x128.ReducesTo [2] S8x128
  h_S_ : 0 < S_.numel
  bcast_S_S8x128 : S_.BroadcastsInDim S8x128 (![] : Fin 0 → Fin S8x128.rank)
  bcast_S8x128_S8x128x1_0_1 : S8x128.BroadcastsInDim S8x128x1 (![0, 1] : Fin 2 → Fin S8x128x1.rank)
  bcast_S8x128x1_S8x128x128_0_1_2 : S8x128x1.BroadcastsInDim S8x128x128 (![0, 1, 2] : Fin 3 → Fin S8x128x128.rank)
  shapeCasts_S8x65536x128_S8x64x32x32x128 : S8x65536x128.ShapeCasts S8x64x32x32x128
  dot_S8x65536x128_S8x65536x128_S8x128x128_1_1_2_2_0_0_wf : DotDims.WF S8x65536x128 S8x65536x128 S8x128x128 [1] [1] [2] [2] [0] [0]
  dot_S8x65536x128_S8x128x128_S8x65536x128_2_1_1_2_0_0_wf : DotDims.WF S8x65536x128 S8x128x128 S8x65536x128 [2] [1] [1] [2] [0] [0]

variable [Facts₀]

def dot_S8x65536x128_S8x65536x128_S8x128x128_1_1_2_2_0_0 : DotDims S8x65536x128 S8x65536x128 S8x128x128 where
  lhsContracting := [1]
  rhsContracting := [1]
  lhsNonContracting := [2]
  rhsNonContracting := [2]
  lhsBatch := [0]
  rhsBatch := [0]
  wf := dot_S8x65536x128_S8x65536x128_S8x128x128_1_1_2_2_0_0_wf
def dot_S8x65536x128_S8x128x128_S8x65536x128_2_1_1_2_0_0 : DotDims S8x65536x128 S8x128x128 S8x65536x128 where
  lhsContracting := [2]
  rhsContracting := [1]
  lhsNonContracting := [1]
  rhsNonContracting := [2]
  lhsBatch := [0]
  rhsBatch := [0]
  wf := dot_S8x65536x128_S8x128x128_S8x65536x128_2_1_1_2_0_0_wf

class Facts : Prop extends Facts₀ where

variable [Facts]
-- ==== Proof.Kernel.EnergyRuns.lean ====
/-
  The first pallas_call, the body alone. On one batch entry it walks the eight row tiles of q in order: at the first tile
  it clears a 128 x 128 accumulator kept in scratch memory, at every tile it adds the tile's Gram matrix (the tile
  transposed times the tile) to the accumulator, and at the last tile it copies the accumulator into the output's block.
  Three cases of the two conditions therefore occur — first tile, middle tile, last tile — and the body is run once per
  case on arbitrary whole buffers; what each run leaves in the accumulator and in the output's buffer is recorded as the
  list of pieces its stores wrote.
-/
import proofs.«167569_j84155589197863_1_alg».proof.Proof.Gen.Kernel.Launch
import proofs.«167569_j84155589197863_1_alg».proof.Proof.Gen.Kernel.Skeleton
import proofs.«167569_j84155589197863_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The q window's staging buffer holds its block at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions, over the grid -/

/-- "This is the first row tile": the second grid coordinate is zero. -/
abbrev isFirst (i : grid0.Coords) : Prop := (Scalar.cmpi .ne (Scalar.extui (Scalar.cmpi .eq (BitVec.ofNat 32 (i 1).val) 0#32)) 0#32) = 1#1
/-- In grid order (eight tiles per batch entry) these are the points ≡ 0 (mod 8). -/
theorem isFirst_iff : ∀ t : Fin cfg0.N, isFirst (grid0.coords t) ↔ t.val % 8 = 0 :=
  (by decide +kernel : ∀ t : Fin grid0.N, isFirst (grid0.coords t) ↔ t.val % 8 = 0)

/-- "This is the last row tile": the second grid coordinate is seven. -/
abbrev isLast (i : grid0.Coords) : Prop := k0_cond2 i = 1#1
/-- These are the points ≡ 7 (mod 8). -/
theorem isLast_iff : ∀ t : Fin cfg0.N, isLast (grid0.coords t) ↔ t.val % 8 = 7 :=
  (by decide +kernel : ∀ t : Fin grid0.N, isLast (grid0.coords t) ↔ t.val % 8 = 7)

/-- The q window is never idle. -/
theorem live0_0 (t : Fin cfg0.N) : cfg0.idle 0 (grid0.coords t) = false := rfl
/-- The output window is idle exactly where the body does not store into it: away from the last tile. -/
theorem idle0_1 (i : grid0.Coords) (h : ¬isLast i) : cfg0.idle 1 i = true := by
  show (!(k0_cond2 i == 1#1)) = true
  simp only [Bool.not_eq_true', beq_eq_false_iff_ne, ne_eq]; exact h
theorem live0_1 (i : grid0.Coords) (h : isLast i) : cfg0.idle 1 i = false := by
  show (!(k0_cond2 i == 1#1)) = false
  simp only [Bool.not_eq_false', beq_iff_eq]; exact h
/-- And away from the last tile its block is not written back. -/
theorem noFlush0_1 (t : Fin cfg0.N) (h : ¬isLast (grid0.coords t)) : (cfg0.win 1).flush t = false := by
  cases hf : (cfg0.win 1).flush t
  · rfl
  · exact absurd ((isLast_iff t).mpr ((flush0_1 t).mp hf)) h

/-! ## The buffers the body is called on -/

abbrev ms0_0 (t : Fin cfg0.N) : Memref sig .tc .vmem S1x8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x128 .f32 := win0_1.stage (cfg0.slots t 1)
abbrev hs0_1 (t : Fin cfg0.N) : (ms0_1 t).IsWhole := hstage0_1 ((cfg0.slots t 1).cast nbuf0_1)
/-- The accumulator: a whole scratch buffer of the call's own. -/
abbrev accM : Memref sig .tc .vmem S128x128 .f32 := Memref.whole cc0_scratch0
abbrev accV : View sig .tc .vmem S128x128 .f32 := (accM).view
/-- One staging buffer of the output window, through which its contents are stated. -/
abbrev outV : View sig .tc .vmem S1x128x128 .f32 := (Memref.whole cc0_stg1_0 : Memref sig .tc .vmem S1x128x128 .f32).view

/-! ## The body, case by case -/

set_option maxHeartbeats 1000000 in
/-- FIRST TILE. Inputs: the q block `x0`; the output's buffer at any contents `xi`, handed back untouched; the
    accumulator at anything. The run's witness is the list of pieces the accumulator ends with. -/
noncomputable def runFirst (c : Dev nD) (i : grid0.Coords) (arg2 : Memref sig .tc .vmem S1x8192x128 .f32) (harg2 : arg2.IsWhole) (arg3 : Memref sig .tc .vmem S1x128x128 .f32) (harg3 : arg3.IsWhole) (arg4 : Memref sig .tc .vmem S128x128 .f32) (harg4 : arg4.IsWhole) (hc0 : isFirst i) (hc1 : ¬isLast i)
    (x0 : Vec F S1x8192x128 .f32) :
    { LS : List (View.Piece (Elt F) S128x128 .f32) //
      ∀ (xi : Vec F S1x128x128 .f32) (E : Set ℕ) (K : PUnit → sProp 𝕄),
        iprop(owns (c : Thread nD τ) arg2 fullShare x0 ∗ owns (c : Thread nD τ) arg3 fullShare xi ∗ (∃ d, owns (c : Thread nD τ) arg4 fullShare d)
            ∗ (iprop(owns (c : Thread nD τ) arg2 fullShare x0 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc0__energy_kernel i arg2 harg2 arg3 harg3 arg4 harg4) K } := by
  refine ⟨?_, fun xi E K => ?run⟩
  case run =>
    simp only [cc0__energy_kernel_eq_skeleton]; unfold cc0__energy_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- MIDDLE TILE. As the first, but the accumulator comes in at the contents `xs` the tile before left. -/
noncomputable def runMiddle (c : Dev nD) (i : grid0.Coords) (arg2 : Memref sig .tc .vmem S1x8192x128 .f32) (harg2 : arg2.IsWhole) (arg3 : Memref sig .tc .vmem S1x128x128 .f32) (harg3 : arg3.IsWhole) (arg4 : Memref sig .tc .vmem S128x128 .f32) (harg4 : arg4.IsWhole) (hc0 : ¬isFirst i) (hc1 : ¬isLast i)
    (x0 : Vec F S1x8192x128 .f32) (xs : Vec F S128x128 .f32) :
    { LS : List (View.Piece (Elt F) S128x128 .f32) //
      ∀ (xi : Vec F S1x128x128 .f32) (E : Set ℕ) (K : PUnit → sProp 𝕄),
        iprop(owns (c : Thread nD τ) arg2 fullShare x0 ∗ owns (c : Thread nD τ) arg3 fullShare xi ∗ owns (c : Thread nD τ) arg4 fullShare xs
            ∗ (iprop(owns (c : Thread nD τ) arg2 fullShare x0 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc0__energy_kernel i arg2 harg2 arg3 harg3 arg4 harg4) K } := by
  refine ⟨?_, fun xi E K => ?run⟩
  case run =>
    simp only [cc0__energy_kernel_eq_skeleton]; unfold cc0__energy_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- LAST TILE. The accumulator comes in at `xs`; the output's buffer, at anything, ends with the pieces `LO`. -/
noncomputable def runLast (c : Dev nD) (i : grid0.Coords) (arg2 : Memref sig .tc .vmem S1x8192x128 .f32) (harg2 : arg2.IsWhole) (arg3 : Memref sig .tc .vmem S1x128x128 .f32) (harg3 : arg3.IsWhole) (arg4 : Memref sig .tc .vmem S128x128 .f32) (harg4 : arg4.IsWhole) (hc0 : ¬isFirst i) (hc1 : isLast i)
    (x0 : Vec F S1x8192x128 .f32) (xs : Vec F S128x128 .f32) :
    Σ' (LO : List (View.Piece (Elt F) S1x128x128 .f32)), { LS : List (View.Piece (Elt F) S128x128 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LS)) -∗ K ⟨⟩))
          ⊢ wp frame (wpE (defs₀ (F := F)) Variants.none c none) E (cc0__energy_kernel i arg2 harg2 arg3 harg3 arg4 harg4) K } := by
  refine ⟨?_, ?_, fun E K => ?run⟩
  case run =>
    simp only [cc0__energy_kernel_eq_skeleton]; unfold cc0__energy_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Hand

end
-- ==== Proof.Kernel.EnergyRegion.lean ====
/-
  The first pallas_call over its grid. Sixty-four points in order, eight row tiles for each of eight batch entries; the
  accumulator is carried from each point to the next, so what it holds after a point is defined by recursion on the point,
  and the invariant of the call after a point names it. The output's block is stored at the last tile of each batch
  entry and written back there; at the other points the output window is idle.
-/
import proofs.«167569_j84155589197863_1_alg».proof.Proof.Gen.Kernel.Launch
import proofs.«167569_j84155589197863_1_alg».proof.Proof.Gen.Kernel.Skeleton
import proofs.«167569_j84155589197863_1_alg».proof.Proof.Gen.Kernel.Points
import proofs.«167569_j84155589197863_1_alg».proof.Proof.Kernel.EnergyRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What one point leaves, case by case -/

theorem notLast_of_first (t : Fin cfg0.N) (h0 : t.val % 8 = 0) : ¬isLast (grid0.coords t) :=
  fun h => by have := (isLast_iff t).mp h; omega
theorem notFirst_of_last (t : Fin cfg0.N) (h1 : t.val % 8 = 7) : ¬isFirst (grid0.coords t) :=
  fun h => by have := (isFirst_iff t).mp h; omega

/-- The accumulator after a first tile. -/
def accFirst (c : Dev nD) (t : Fin cfg0.N) (h0 : t.val % 8 = 0) : Vec F S128x128 .f32 :=
  View.canon (runFirst c (grid0.coords t) (ms0_0 t) (hs0_0 t) (ms0_1 t) (hs0_1 t) accM (Memref.isWhole_whole _) ((isFirst_iff t).mpr h0) (notLast_of_first t h0) (iblk0 V c 0 t)).1
/-- The accumulator after a middle tile, from what the tile before left. -/
def accMiddle (c : Dev nD) (t : Fin cfg0.N) (h0 : ¬t.val % 8 = 0) (h1 : ¬t.val % 8 = 7) (xs : Vec F S128x128 .f32) : Vec F S128x128 .f32 :=
  View.canon (runMiddle c (grid0.coords t) (ms0_0 t) (hs0_0 t) (ms0_1 t) (hs0_1 t) accM (Memref.isWhole_whole _) (fun h => h0 ((isFirst_iff t).mp h)) (fun h => h1 ((isLast_iff t).mp h)) (iblk0 V c 0 t) xs).1
/-- The accumulator after a last tile, -/
def accLast (c : Dev nD) (t : Fin cfg0.N) (h1 : t.val % 8 = 7) (xs : Vec F S128x128 .f32) : Vec F S128x128 .f32 :=
  View.canon (runLast c (grid0.coords t) (ms0_0 t) (hs0_0 t) (ms0_1 t) (hs0_1 t) accM (Memref.isWhole_whole _) (notFirst_of_last t h1) ((isLast_iff t).mpr h1) (iblk0 V c 0 t) xs).2.1
/-- and the output's staging buffer after it. -/
def outLast (c : Dev nD) (t : Fin cfg0.N) (h1 : t.val % 8 = 7) (xs : Vec F S128x128 .f32) : Vec F S1x128x128 .f32 :=
  View.canon (runLast c (grid0.coords t) (ms0_0 t) (hs0_0 t) (ms0_1 t) (hs0_1 t) accM (Memref.isWhole_whole _) (notFirst_of_last t h1) ((isLast_iff t).mpr h1) (iblk0 V c 0 t) xs).1

/-- Each run's pieces tile the buffer they were stored into, so they cover it. -/
theorem coverFirst (c : Dev nD) (t : Fin cfg0.N) (h0 : t.val % 8 = 0) (y : S128x128.Idx) :
    ∃ pc ∈ (runFirst c (grid0.coords t) (ms0_0 t) (hs0_0 t) (ms0_1 t) (hs0_1 t) accM (Memref.isWhole_whole _) ((isFirst_iff t).mpr h0) (notLast_of_first t h0) (iblk0 V c 0 t)).1, y ∈ pc.1.set :=
  View.cover_of_tiledL _ S128x128.size (by sl_kernel_rfl) y
theorem coverMiddle (c : Dev nD) (t : Fin cfg0.N) (h0 : ¬t.val % 8 = 0) (h1 : ¬t.val % 8 = 7) (xs : Vec F S128x128 .f32) (y : S128x128.Idx) :
    ∃ pc ∈ (runMiddle c (grid0.coords t) (ms0_0 t) (hs0_0 t) (ms0_1 t) (hs0_1 t) accM (Memref.isWhole_whole _) (fun h => h0 ((isFirst_iff t).mp h)) (fun h => h1 ((isLast_iff t).mp h)) (iblk0 V c 0 t) xs).1, y ∈ pc.1.set :=
  View.cover_of_tiledL _ S128x128.size (by sl_kernel_rfl) y
theorem coverLastAcc (c : Dev nD) (t : Fin cfg0.N) (h1 : t.val % 8 = 7) (xs : Vec F S128x128 .f32) (y : S128x128.Idx) :
    ∃ pc ∈ (runLast c (grid0.coords t) (ms0_0 t) (hs0_0 t) (ms0_1 t) (hs0_1 t) accM (Memref.isWhole_whole _) (notFirst_of_last t h1) ((isLast_iff t).mpr h1) (iblk0 V c 0 t) xs).2.1, y ∈ pc.1.set :=
  View.cover_of_tiledL _ S128x128.size (by sl_kernel_rfl) y
theorem coverLastOut (c : Dev nD) (t : Fin cfg0.N) (h1 : t.val % 8 = 7) (xs : Vec F S128x128 .f32) (y : S1x128x128.Idx) :
    ∃ pc ∈ (runLast c (grid0.coords t) (ms0_0 t) (hs0_0 t) (ms0_1 t) (hs0_1 t) accM (Memref.isWhole_whole _) (notFirst_of_last t h1) ((isLast_iff t).mpr h1) (iblk0 V c 0 t) xs).1, y ∈ pc.1.set :=
  View.cover_of_tiledL _ S1x128x128.size (by sl_kernel_rfl) y

/-! ## The accumulator, point by point -/

/-- What the accumulator holds after the body at grid position `n`: the case of `n` applied to what position `n - 1` left. -/
def accAt (c : Dev nD) : (n : ℕ) → n < cfg0.N → Vec F S128x128 .f32
  | 0, hn => accFirst V c ⟨0, hn⟩ (Nat.zero_mod _)
  | n + 1, hn =>
    if h0 : (n + 1) % 8 = 0 then accFirst V c ⟨n + 1, hn⟩ h0
    else if h1 : (n + 1) % 8 = 7 then accLast V c ⟨n + 1, hn⟩ h1 (accAt c n (Nat.lt_of_succ_lt hn))
    else accMiddle V c ⟨n + 1, hn⟩ h0 h1 (accAt c n (Nat.lt_of_succ_lt hn))

theorem pred_lt (t : Fin cfg0.N) : t.val - 1 < cfg0.N := Nat.lt_of_le_of_lt (Nat.sub_le _ _) t.isLt

theorem accAt_first (c : Dev nD) (t : Fin cfg0.N) (h0 : t.val % 8 = 0) : accAt V c t.val t.isLt = accFirst V c t h0 := by
  obtain ⟨n, hn⟩ := t
  cases n with
  | zero => rfl
  | succ n => exact dif_pos h0
theorem accAt_middle (c : Dev nD) (t : Fin cfg0.N) (h0 : ¬t.val % 8 = 0) (h1 : ¬t.val % 8 = 7) :
    accAt V c t.val t.isLt = accMiddle V c t h0 h1 (accAt V c (t.val - 1) (pred_lt t)) := by
  obtain ⟨n, hn⟩ := t
  cases n with
  | zero => exact absurd (Nat.zero_mod _) h0
  | succ n => exact (dif_neg h0).trans (dif_neg h1)
theorem accAt_last (c : Dev nD) (t : Fin cfg0.N) (h1 : t.val % 8 = 7) :
    accAt V c t.val t.isLt = accLast V c t h1 (accAt V c (t.val - 1) (pred_lt t)) := by
  obtain ⟨n, hn⟩ := t
  cases n with
  | zero => exact absurd (show (0 : ℕ) % 8 = 7 from h1) (Nat.zero_mod 8 ▸ (by decide : ¬(0 : ℕ) = 7))
  | succ n =>
    have h1' : (n + 1) % 8 = 7 := h1
    exact (dif_neg (by omega)).trans (dif_pos h1)

/-- What the output's staging buffer holds after the body at point `t`: at a last tile the copy of the accumulator; elsewhere
    the window is idle and nothing consults this value. -/
def outAt (c : Dev nD) (t : Fin cfg0.N) : Vec F S1x128x128 .f32 :=
  if h1 : t.val % 8 = 7 then outLast V c t h1 (accAt V c (t.val - 1) (pred_lt t)) else View.canon []

theorem outAt_last (c : Dev nD) (t : Fin cfg0.N) (h1 : t.val % 8 = 7) :
    outAt V c t = outLast V c t h1 (accAt V c (t.val - 1) (pred_lt t)) := dif_pos h1

/-! ## The invariant and the proof data -/

/-- The scoped buffers that are neither a staging buffer of this call nor its accumulator: the second call's six staging
    buffers, each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the call is handed besides its windows: the accumulator at anything, the other scoped buffers, the generator register. -/
theorem PhiA0_eq (c : Dev nD) :
    (Pipeline.ΦA spec0 c : sProp 𝕄)
      = iprop(iprop((∃ d, owns (c : Thread nD τ) accM fullShare d) ∗ others (F := F) c) ∗ (∃ r, prngReg c r)) := by
  unfold Pipeline.ΦA others; rw [scopedRest0_eq]; simp only [accM, owns_whole]; try rfl

/-- The invariant before position `n`: before the first point what the call was handed; afterwards the accumulator at
    what the point before left. -/
def PhiS (c : Dev nD) : (n : ℕ) → n ≤ cfg0.N → sProp 𝕄
  | 0, _ => Pipeline.ΦA spec0 c
  | n + 1, hn => iprop(iprop(owns (c : Thread nD τ) accM fullShare (accAt V c n hn) ∗ others (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare (accAt V c n hn) ∗ others (F := F) c) ∗ (∃ r, prngReg c r)) := rfl
theorem PhiS_pos (c : Dev nD) (n : ℕ) (h : n ≤ cfg0.N) (hz : n ≠ 0) :
    PhiS V c n h = iprop(iprop(owns (c : Thread nD τ) accM fullShare (accAt V c (n - 1) (by omega)) ∗ others (F := F) c) ∗ (∃ r, prngReg c r)) := by
  cases n with
  | zero => exact absurd rfl hz
  | succ n => rfl

/-- The call's proof data on core `c`: the arrays as the call finds them; after the body at point `t` the q window's
    buffer at its block and the output's at `outAt`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = outAt V c t := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the point's position modulo eight says which case it is in; the invariant hands the body the
    accumulator (at anything before the very first point, at what the point before left afterwards) and takes it back
    at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [live0_0 t], after0_0]
  by_cases h0 : t.val % 8 = 0
  · have hnl := notLast_of_first t h0
    rw [Dat.leavesExact_idle (dat0 V c) 1 t (idle0_1 _ hnl) (noFlush0_1 t hnl)]
    rw [accAt_first V c t h0]
    unfold accFirst
    by_cases hz : t.val = 0
    · rw [PhiS_castSucc V c t, PhiS_zero V c _ _ hz, PhiA0_eq]
      iintro ⟨⟨⟨HS, Hoth⟩, Hg⟩, Ho, ⟨%d0, H0⟩, ⟨%d1, H1⟩⟩
      iapply ((runFirst c (grid0.coords t) (ms0_0 t) (hs0_0 t) (ms0_1 t) (hs0_1 t) accM (Memref.isWhole_whole _) ((isFirst_iff t).mpr h0) hnl (iblk0 V c 0 t)).2 _ Set.univ _)
      isplitl [H0]; · iexact H0
      isplitl [H1]; · iexact H1
      isplitl [HS]; · iexact HS
      iintro ⟨H0, H1, ⟨%es, HS⟩⟩
      isplitl [HS Hoth Hg]
      · isplitl [HS Hoth]
        · isplitl [HS]
          · unfold owns; iexists _; isplitr
            swap; · iexact HS
            ipureintro; exact View.read_writes_eq_canon _ _ _ (coverFirst V c t h0)
          iexact Hoth
        iexact Hg
      isplitl [Ho]; · iexact Ho
      isplitl [H0]; · iexact H0
      iexists _; iexact H1
    · rw [PhiS_castSucc V c t, PhiS_pos V c _ _ hz]
      iintro ⟨⟨⟨HS, Hoth⟩, Hg⟩, Ho, ⟨%d0, H0⟩, ⟨%d1, H1⟩⟩
      iapply ((runFirst c (grid0.coords t) (ms0_0 t) (hs0_0 t) (ms0_1 t) (hs0_1 t) accM (Memref.isWhole_whole _) ((isFirst_iff t).mpr h0) hnl (iblk0 V c 0 t)).2 _ Set.univ _)
      isplitl [H0]; · iexact H0
      isplitl [H1]; · iexact H1
      isplitl [HS]; · iexists _; iexact HS
      iintro ⟨H0, H1, ⟨%es, HS⟩⟩
      isplitl [HS Hoth Hg]
      · isplitl [HS Hoth]
        · isplitl [HS]
          · unfold owns; iexists _; isplitr
            swap; · iexact HS
            ipureintro; exact View.read_writes_eq_canon _ _ _ (coverFirst V c t h0)
          iexact Hoth
        iexact Hg
      isplitl [Ho]; · iexact Ho
      isplitl [H0]; · iexact H0
      iexists _; iexact H1
  · have hz : t.val ≠ 0 := fun e => h0 (by rw [e])
    rw [PhiS_castSucc V c t, PhiS_pos V c _ _ hz]
    by_cases h1 : t.val % 8 = 7
    · rw [show (dat0 V c).leavesExact 1 t = owns (c : Thread nD τ) (ms0_1 t) fullShare ((dat0 V c).after 1 t) from by
        unfold Dat.leavesExact; rw [live0_1 _ ((isLast_iff t).mpr h1)], after0_1]
      rw [accAt_last V c t h1, outAt_last V c t h1]
      unfold accLast outLast
      iintro ⟨⟨⟨HS, Hoth⟩, Hg⟩, Ho, ⟨%d0, H0⟩, ⟨%d1, H1⟩⟩
      iapply ((runLast c (grid0.coords t) (ms0_0 t) (hs0_0 t) (ms0_1 t) (hs0_1 t) accM (Memref.isWhole_whole _) (notFirst_of_last t h1) ((isLast_iff t).mpr h1) (iblk0 V c 0 t) _).2.2 Set.univ _)
      isplitl [H0]; · iexact H0
      isplitl [H1]; · iexists _; iexact H1
      isplitl [HS]; · iexact HS
      iintro ⟨H0, ⟨%e1, H1⟩, ⟨%es, HS⟩⟩
      isplitl [HS Hoth Hg]
      · isplitl [HS Hoth]
        · isplitl [HS]
          · unfold owns; iexists _; isplitr
            swap; · iexact HS
            ipureintro; exact View.read_writes_eq_canon _ _ _ (coverLastAcc V c t h1 _)
          iexact Hoth
        iexact Hg
      isplitl [Ho]; · iexact Ho
      isplitl [H0]; · iexact H0
      unfold owns; iexists _; isplitr
      swap; · iexact H1
      ipureintro; exact View.read_writes_eq_canon _ _ _ (coverLastOut V c t h1 _)
    · have hnl : ¬isLast (grid0.coords t) := fun h => h1 ((isLast_iff t).mp h)
      rw [Dat.leavesExact_idle (dat0 V c) 1 t (idle0_1 _ hnl) (noFlush0_1 t hnl)]
      rw [accAt_middle V c t h0 h1]
      unfold accMiddle
      iintro ⟨⟨⟨HS, Hoth⟩, Hg⟩, Ho, ⟨%d0, H0⟩, ⟨%d1, H1⟩⟩
      iapply ((runMiddle c (grid0.coords t) (ms0_0 t) (hs0_0 t) (ms0_1 t) (hs0_1 t) accM (Memref.isWhole_whole _) (fun h => h0 ((isFirst_iff t).mp h)) hnl (iblk0 V c 0 t) _).2 _ Set.univ _)
      isplitl [H0]; · iexact H0
      isplitl [H1]; · iexact H1
      isplitl [HS]; · iexact HS
      iintro ⟨H0, H1, ⟨%es, HS⟩⟩
      isplitl [HS Hoth Hg]
      · isplitl [HS Hoth]
        · isplitl [HS]
          · unfold owns; iexists _; isplitr
            swap; · iexact HS
            ipureintro; exact View.read_writes_eq_canon _ _ _ (coverMiddle V c t h0 h1 _)
          iexact Hoth
        iexact Hg
      isplitl [Ho]; · iexact Ho
      isplitl [H0]; · iexact H0
      iexists _; iexact H1

/-- The body obligation of the first call, at every point. -/
theorem body_obligation0 (c : Dev nD) : BodyObligation (dat0 (F := F) V c) (defs₀ (F := F)) Variants.none () Set.univ := fun t => by
  rw [bigSep_W0, bigSep_W0]
  exact sound_body0 V c t

/-- What the call is handed is the invariant before the first point; -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- and after the last point the invariant gives it back, the accumulator's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS, Hoth⟩, Hg⟩
  isplitl [HS Hoth]
  · isplitl [HS]
    · iexists _; iexact HS
    iexact Hoth
  iexact Hg

end Cert.Kernel.Hand

end
-- ==== Proof.Kernel.OutRegion.lean ====
/-
  The second pallas_call, one grid point at a time: a block of 8192 rows of q (one batch entry, one row tile) times that
  batch entry's 128 x 128 attention matrix, stored whole into the output's block. Everything is stated at a parameter
  `V`, the contents of the TensorCore's buffers when the call is entered.
-/
import proofs.«167569_j84155589197863_1_alg».proof.Proof.Gen.Kernel.Launch
import proofs.«167569_j84155589197863_1_alg».proof.Proof.Gen.Kernel.Skeleton
import proofs.«167569_j84155589197863_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The q window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The attention window's staging buffer holds its block at every point: where it is not fetched again the block
    index has not moved (it depends on the batch coordinate alone). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole q / output block and the whole attention block, as the body's rectangles. -/
abbrev rQ : Rect S1x8192x128 := Rect.unit (s := S1x8192x128) ![0, 0, 0] S1x8192x128.size inb_S1x8192x128_S1x8192x128_0_0_0
abbrev rA : Rect S1x128x128 := Rect.unit (s := S1x128x128) ![0, 0, 0] S1x128x128.size inb_S1x128x128_S1x128x128_0_0_0

/-- What the body leaves in the output's staging buffer: its one store, of the product of the two loaded blocks. -/
def out1_2 (x0 : Vec F S1x8192x128 .f32) (x1 : Vec F S1x128x128 .f32) : Vec F S1x8192x128 .f32 :=
  View.canon [⟨rQ, k1_pay1 (View.ld x0 rQ) (View.ld x1 rA)⟩]

/-- The one store covers the buffer. -/
theorem cover1_2 (p0 : Vec F S1x8192x128 .f32) (y : S1x8192x128.Idx) :
    ∃ pc ∈ ([⟨rQ, p0⟩] : List (View.Piece (Elt F) S1x8192x128 .f32)), y ∈ pc.1.set :=
  View.cover_of_tiled [⟨rQ, p0⟩] S1x8192x128.size (by rfl) y

set_option maxHeartbeats 1000000 in
/-- The body on whole staging buffers — the two inputs at their contents, the output's at anything — runs to the end
    with the inputs as they were and the output's buffer at `out1_2`. -/
theorem sound_kernel1 (c : Dev nD) (E : Set ℕ) (i : grid1.Coords) (arg2 : Memref sig .tc .vmem S1x8192x128 .f32) (harg2 : arg2.IsWhole)
    (arg3 : Memref sig .tc .vmem S1x128x128 .f32) (harg3 : arg3.IsWhole) (arg4 : Memref sig .tc .vmem S1x8192x128 .f32) (harg4 : arg4.IsWhole)
    (x0 : Vec F S1x8192x128 .f32) (x1 : Vec F S1x128x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__out_kernel i arg2 harg2 arg3 harg3 arg4 harg4) K := by
  simp only [cc1__out_kernel_eq_skeleton]; unfold cc1__out_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The call's proof data on core `c`: the arrays as the call finds them; after the body at point `t` each input's
    buffer at its block and the output's at `out1_2` of the two input blocks; nothing kept between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the second call, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Run.lean ====
/-
  The whole program as five segments in order — the reshape of x into q, the first pallas_call, the softmax lines, the
  second pallas_call, the reshape of the result — with the contents of every unscoped buffer named at each boundary:
  a host stretch applies its operations to the boundary before it; a pallas_call replaces its arrays by what its
  write-backs leave and keeps every other buffer. Every weakly fair execution terminates with every unscoped buffer at
  the last boundary's contents.
-/
import proofs.«167569_j84155589197863_1_alg».proof.Proof.Gen.Kernel.Launch
import proofs.«167569_j84155589197863_1_alg».proof.Proof.Gen.Kernel.Skeleton
import proofs.«167569_j84155589197863_1_alg».proof.Proof.Gen.Kernel.Points
import proofs.«167569_j84155589197863_1_alg».proof.Proof.Kernel.EnergyRegion
import proofs.«167569_j84155589197863_1_alg».proof.Proof.Kernel.OutRegion
import proofs.«167569_j84155589197863_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the reshape of x into q (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first call's exit: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the softmax lines (the second call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second call's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the last reshape (the end). -/
abbrev W5 : Dev nD → Valuation τ sig (Elt F) := fun c => StableHlo.after hostOps2 (W4 m c)

/-! ## The proof data family and what rides beside the buffers -/

abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The two calls as segments -/

set_option backward.isDefEq.respectTransparency.types false in
/-- The first call: entered from every unscoped buffer at `W1`, left at `W2`. Its arrays are split out of the unscoped
    buffers and put back at the exit contents; the generator register and the scoped rest go into the call's invariant
    (which keeps the accumulator) and come back out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W3`, left at `W4`; it keeps nothing between points. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- From any memory with zero counters every weakly fair execution of the program terminates, nothing faulting, and
    every final state has every unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => (show iprop(StableHlo.held (c : Thread nD τ) (Pipeline.ucRefs τ sig) (W5 m c) ∗ R c)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-! ## The argument reaches the end as launched -/

/-- No host line writes the argument and no call has it among its arrays, so it reaches the end as launched. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide : main_arg0 ∉ hostOps2_W)
    _ = W3 m c (Proc.devRef .tc main_arg0) := W4_of_ne m c main_arg0 (by decide)
    _ = W2 m c (Proc.devRef .tc main_arg0) := StableHlo.after_of_writes_sub hostOps1 _ hostOps1_writes (by decide : main_arg0 ∉ hostOps1_W)
    _ = W1 m c (Proc.devRef .tc main_arg0) := W2_of_ne m c main_arg0 (by decide)
    _ = W0 m c (Proc.devRef .tc main_arg0) := StableHlo.after_of_writes_sub hostOps0 _ hostOps0_writes (by decide : main_arg0 ∉ hostOps0_W)
    _ = m ((c : Thread nD τ).loc main_arg0) := rfl

/-- The frame: the program runs to the end and its argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W5_main_arg0 m c)) (run_all m ρ)

end Cert.Kernel.Hand

end
-- ==== Proof.KernelIdeal.EnergyRuns.lean ====
/-
  The first pallas_call, the body alone. On one batch entry it walks the eight row tiles of q in order: at the first tile
  it clears a 128 x 128 accumulator kept in scratch memory, at every tile it adds the tile's Gram matrix (the tile
  transposed times the tile) to the accumulator, and at the last tile it copies the accumulator into the output's block.
  Three cases of the two conditions therefore occur — first tile, middle tile, last tile — and the body is run once per
  case on arbitrary whole buffers; what each run leaves in the accumulator and in the output's buffer is recorded as the
  list of pieces its stores wrote.
-/
import proofs.«167569_j84155589197863_1_alg».proof.Proof.Gen.KernelIdeal.Launch
import proofs.«167569_j84155589197863_1_alg».proof.Proof.Gen.KernelIdeal.Skeleton
import proofs.«167569_j84155589197863_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The q window's staging buffer holds its block at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions, over the grid -/

/-- "This is the first row tile": the second grid coordinate is zero. -/
abbrev isFirst (i : grid0.Coords) : Prop := (Scalar.cmpi .ne (Scalar.extui (Scalar.cmpi .eq (BitVec.ofNat 32 (i 1).val) 0#32)) 0#32) = 1#1
/-- In grid order (eight tiles per batch entry) these are the points ≡ 0 (mod 8). -/
theorem isFirst_iff : ∀ t : Fin cfg0.N, isFirst (grid0.coords t) ↔ t.val % 8 = 0 :=
  (by decide +kernel : ∀ t : Fin grid0.N, isFirst (grid0.coords t) ↔ t.val % 8 = 0)

/-- "This is the last row tile": the second grid coordinate is seven. -/
abbrev isLast (i : grid0.Coords) : Prop := k0_cond2 i = 1#1
/-- These are the points ≡ 7 (mod 8). -/
theorem isLast_iff : ∀ t : Fin cfg0.N, isLast (grid0.coords t) ↔ t.val % 8 = 7 :=
  (by decide +kernel : ∀ t : Fin grid0.N, isLast (grid0.coords t) ↔ t.val % 8 = 7)

/-- The q window is never idle. -/
theorem live0_0 (t : Fin cfg0.N) : cfg0.idle 0 (grid0.coords t) = false := rfl
/-- The output window is idle exactly where the body does not store into it: away from the last tile. -/
theorem idle0_1 (i : grid0.Coords) (h : ¬isLast i) : cfg0.idle 1 i = true := by
  show (!(k0_cond2 i == 1#1)) = true
  simp only [Bool.not_eq_true', beq_eq_false_iff_ne, ne_eq]; exact h
theorem live0_1 (i : grid0.Coords) (h : isLast i) : cfg0.idle 1 i = false := by
  show (!(k0_cond2 i == 1#1)) = false
  simp only [Bool.not_eq_false', beq_iff_eq]; exact h
/-- And away from the last tile its block is not written back. -/
theorem noFlush0_1 (t : Fin cfg0.N) (h : ¬isLast (grid0.coords t)) : (cfg0.win 1).flush t = false := by
  cases hf : (cfg0.win 1).flush t
  · rfl
  · exact absurd ((isLast_iff t).mpr ((flush0_1 t).mp hf)) h

/-! ## The buffers the body is called on -/

abbrev ms0_0 (t : Fin cfg0.N) : Memref sig .tc .vmem S1x8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x128 .f32 := win0_1.stage (cfg0.slots t 1)
abbrev hs0_1 (t : Fin cfg0.N) : (ms0_1 t).IsWhole := hstage0_1 ((cfg0.slots t 1).cast nbuf0_1)
/-- The accumulator: a whole scratch buffer of the call's own. -/
abbrev accM : Memref sig .tc .vmem S128x128 .f32 := Memref.whole cc0_scratch0
abbrev accV : View sig .tc .vmem S128x128 .f32 := (accM).view
/-- One staging buffer of the output window, through which its contents are stated. -/
abbrev outV : View sig .tc .vmem S1x128x128 .f32 := (Memref.whole cc0_stg1_0 : Memref sig .tc .vmem S1x128x128 .f32).view

/-! ## The body, case by case -/

set_option maxHeartbeats 1000000 in
/-- FIRST TILE. Inputs: the q block `x0`; the output's buffer at any contents `xi`, handed back untouched; the
    accumulator at anything. The run's witness is the list of pieces the accumulator ends with. -/
noncomputable def runFirst (c : Dev nD) (i : grid0.Coords) (arg2 : Memref sig .tc .vmem S1x8192x128 .f32) (harg2 : arg2.IsWhole) (arg3 : Memref sig .tc .vmem S1x128x128 .f32) (harg3 : arg3.IsWhole) (arg4 : Memref sig .tc .vmem S128x128 .f32) (harg4 : arg4.IsWhole) (hc0 : isFirst i) (hc1 : ¬isLast i)
    (x0 : Vec F S1x8192x128 .f32) :
    { LS : List (View.Piece (Elt F) S128x128 .f32) //
      ∀ (xi : Vec F S1x128x128 .f32) (E : Set ℕ) (K : PUnit → sProp 𝕄),
        iprop(owns (c : Thread nD τ) arg2 fullShare x0 ∗ owns (c : Thread nD τ) arg3 fullShare xi ∗ (∃ d, owns (c : Thread nD τ) arg4 fullShare d)
            ∗ (iprop(owns (c : Thread nD τ) arg2 fullShare x0 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc0__energy_kernel i arg2 harg2 arg3 harg3 arg4 harg4) K } := by
  refine ⟨?_, fun xi E K => ?run⟩
  case run =>
    simp only [cc0__energy_kernel_eq_skeleton]; unfold cc0__energy_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- MIDDLE TILE. As the first, but the accumulator comes in at the contents `xs` the tile before left. -/
noncomputable def runMiddle (c : Dev nD) (i : grid0.Coords) (arg2 : Memref sig .tc .vmem S1x8192x128 .f32) (harg2 : arg2.IsWhole) (arg3 : Memref sig .tc .vmem S1x128x128 .f32) (harg3 : arg3.IsWhole) (arg4 : Memref sig .tc .vmem S128x128 .f32) (harg4 : arg4.IsWhole) (hc0 : ¬isFirst i) (hc1 : ¬isLast i)
    (x0 : Vec F S1x8192x128 .f32) (xs : Vec F S128x128 .f32) :
    { LS : List (View.Piece (Elt F) S128x128 .f32) //
      ∀ (xi : Vec F S1x128x128 .f32) (E : Set ℕ) (K : PUnit → sProp 𝕄),
        iprop(owns (c : Thread nD τ) arg2 fullShare x0 ∗ owns (c : Thread nD τ) arg3 fullShare xi ∗ owns (c : Thread nD τ) arg4 fullShare xs
            ∗ (iprop(owns (c : Thread nD τ) arg2 fullShare x0 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc0__energy_kernel i arg2 harg2 arg3 harg3 arg4 harg4) K } := by
  refine ⟨?_, fun xi E K => ?run⟩
  case run =>
    simp only [cc0__energy_kernel_eq_skeleton]; unfold cc0__energy_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- LAST TILE. The accumulator comes in at `xs`; the output's buffer, at anything, ends with the pieces `LO`. -/
noncomputable def runLast (c : Dev nD) (i : grid0.Coords) (arg2 : Memref sig .tc .vmem S1x8192x128 .f32) (harg2 : arg2.IsWhole) (arg3 : Memref sig .tc .vmem S1x128x128 .f32) (harg3 : arg3.IsWhole) (arg4 : Memref sig .tc .vmem S128x128 .f32) (harg4 : arg4.IsWhole) (hc0 : ¬isFirst i) (hc1 : isLast i)
    (x0 : Vec F S1x8192x128 .f32) (xs : Vec F S128x128 .f32) :
    Σ' (LO : List (View.Piece (Elt F) S1x128x128 .f32)), { LS : List (View.Piece (Elt F) S128x128 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LS)) -∗ K ⟨⟩))
          ⊢ wp frame (wpE (defs₀ (F := F)) Variants.none c none) E (cc0__energy_kernel i arg2 harg2 arg3 harg3 arg4 harg4) K } := by
  refine ⟨?_, ?_, fun E K => ?run⟩
  case run =>
    simp only [cc0__energy_kernel_eq_skeleton]; unfold cc0__energy_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Hand

end
-- ==== Proof.KernelIdeal.EnergyRegion.lean ====
/-
  The first pallas_call over its grid. Sixty-four points in order, eight row tiles for each of eight batch entries; the
  accumulator is carried from each point to the next, so what it holds after a point is defined by recursion on the point,
  and the invariant of the call after a point names it. The output's block is stored at the last tile of each batch
  entry and written back there; at the other points the output window is idle.
-/
import proofs.«167569_j84155589197863_1_alg».proof.Proof.Gen.KernelIdeal.Launch
import proofs.«167569_j84155589197863_1_alg».proof.Proof.Gen.KernelIdeal.Skeleton
import proofs.«167569_j84155589197863_1_alg».proof.Proof.Gen.KernelIdeal.Points
import proofs.«167569_j84155589197863_1_alg».proof.Proof.KernelIdeal.EnergyRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What one point leaves, case by case -/

theorem notLast_of_first (t : Fin cfg0.N) (h0 : t.val % 8 = 0) : ¬isLast (grid0.coords t) :=
  fun h => by have := (isLast_iff t).mp h; omega
theorem notFirst_of_last (t : Fin cfg0.N) (h1 : t.val % 8 = 7) : ¬isFirst (grid0.coords t) :=
  fun h => by have := (isFirst_iff t).mp h; omega

/-- The accumulator after a first tile. -/
def accFirst (c : Dev nD) (t : Fin cfg0.N) (h0 : t.val % 8 = 0) : Vec F S128x128 .f32 :=
  View.canon (runFirst c (grid0.coords t) (ms0_0 t) (hs0_0 t) (ms0_1 t) (hs0_1 t) accM (Memref.isWhole_whole _) ((isFirst_iff t).mpr h0) (notLast_of_first t h0) (iblk0 V c 0 t)).1
/-- The accumulator after a middle tile, from what the tile before left. -/
def accMiddle (c : Dev nD) (t : Fin cfg0.N) (h0 : ¬t.val % 8 = 0) (h1 : ¬t.val % 8 = 7) (xs : Vec F S128x128 .f32) : Vec F S128x128 .f32 :=
  View.canon (runMiddle c (grid0.coords t) (ms0_0 t) (hs0_0 t) (ms0_1 t) (hs0_1 t) accM (Memref.isWhole_whole _) (fun h => h0 ((isFirst_iff t).mp h)) (fun h => h1 ((isLast_iff t).mp h)) (iblk0 V c 0 t) xs).1
/-- The accumulator after a last tile, -/
def accLast (c : Dev nD) (t : Fin cfg0.N) (h1 : t.val % 8 = 7) (xs : Vec F S128x128 .f32) : Vec F S128x128 .f32 :=
  View.canon (runLast c (grid0.coords t) (ms0_0 t) (hs0_0 t) (ms0_1 t) (hs0_1 t) accM (Memref.isWhole_whole _) (notFirst_of_last t h1) ((isLast_iff t).mpr h1) (iblk0 V c 0 t) xs).2.1
/-- and the output's staging buffer after it. -/
def outLast (c : Dev nD) (t : Fin cfg0.N) (h1 : t.val % 8 = 7) (xs : Vec F S128x128 .f32) : Vec F S1x128x128 .f32 :=
  View.canon (runLast c (grid0.coords t) (ms0_0 t) (hs0_0 t) (ms0_1 t) (hs0_1 t) accM (Memref.isWhole_whole _) (notFirst_of_last t h1) ((isLast_iff t).mpr h1) (iblk0 V c 0 t) xs).1

/-- Each run's pieces tile the buffer they were stored into, so they cover it. -/
theorem coverFirst (c : Dev nD) (t : Fin cfg0.N) (h0 : t.val % 8 = 0) (y : S128x128.Idx) :
    ∃ pc ∈ (runFirst c (grid0.coords t) (ms0_0 t) (hs0_0 t) (ms0_1 t) (hs0_1 t) accM (Memref.isWhole_whole _) ((isFirst_iff t).mpr h0) (notLast_of_first t h0) (iblk0 V c 0 t)).1, y ∈ pc.1.set :=
  View.cover_of_tiledL _ S128x128.size (by sl_kernel_rfl) y
theorem coverMiddle (c : Dev nD) (t : Fin cfg0.N) (h0 : ¬t.val % 8 = 0) (h1 : ¬t.val % 8 = 7) (xs : Vec F S128x128 .f32) (y : S128x128.Idx) :
    ∃ pc ∈ (runMiddle c (grid0.coords t) (ms0_0 t) (hs0_0 t) (ms0_1 t) (hs0_1 t) accM (Memref.isWhole_whole _) (fun h => h0 ((isFirst_iff t).mp h)) (fun h => h1 ((isLast_iff t).mp h)) (iblk0 V c 0 t) xs).1, y ∈ pc.1.set :=
  View.cover_of_tiledL _ S128x128.size (by sl_kernel_rfl) y
theorem coverLastAcc (c : Dev nD) (t : Fin cfg0.N) (h1 : t.val % 8 = 7) (xs : Vec F S128x128 .f32) (y : S128x128.Idx) :
    ∃ pc ∈ (runLast c (grid0.coords t) (ms0_0 t) (hs0_0 t) (ms0_1 t) (hs0_1 t) accM (Memref.isWhole_whole _) (notFirst_of_last t h1) ((isLast_iff t).mpr h1) (iblk0 V c 0 t) xs).2.1, y ∈ pc.1.set :=
  View.cover_of_tiledL _ S128x128.size (by sl_kernel_rfl) y
theorem coverLastOut (c : Dev nD) (t : Fin cfg0.N) (h1 : t.val % 8 = 7) (xs : Vec F S128x128 .f32) (y : S1x128x128.Idx) :
    ∃ pc ∈ (runLast c (grid0.coords t) (ms0_0 t) (hs0_0 t) (ms0_1 t) (hs0_1 t) accM (Memref.isWhole_whole _) (notFirst_of_last t h1) ((isLast_iff t).mpr h1) (iblk0 V c 0 t) xs).1, y ∈ pc.1.set :=
  View.cover_of_tiledL _ S1x128x128.size (by sl_kernel_rfl) y

/-! ## The accumulator, point by point -/

/-- What the accumulator holds after the body at grid position `n`: the case of `n` applied to what position `n - 1` left. -/
def accAt (c : Dev nD) : (n : ℕ) → n < cfg0.N → Vec F S128x128 .f32
  | 0, hn => accFirst V c ⟨0, hn⟩ (Nat.zero_mod _)
  | n + 1, hn =>
    if h0 : (n + 1) % 8 = 0 then accFirst V c ⟨n + 1, hn⟩ h0
    else if h1 : (n + 1) % 8 = 7 then accLast V c ⟨n + 1, hn⟩ h1 (accAt c n (Nat.lt_of_succ_lt hn))
    else accMiddle V c ⟨n + 1, hn⟩ h0 h1 (accAt c n (Nat.lt_of_succ_lt hn))

theorem pred_lt (t : Fin cfg0.N) : t.val - 1 < cfg0.N := Nat.lt_of_le_of_lt (Nat.sub_le _ _) t.isLt

theorem accAt_first (c : Dev nD) (t : Fin cfg0.N) (h0 : t.val % 8 = 0) : accAt V c t.val t.isLt = accFirst V c t h0 := by
  obtain ⟨n, hn⟩ := t
  cases n with
  | zero => rfl
  | succ n => exact dif_pos h0
theorem accAt_middle (c : Dev nD) (t : Fin cfg0.N) (h0 : ¬t.val % 8 = 0) (h1 : ¬t.val % 8 = 7) :
    accAt V c t.val t.isLt = accMiddle V c t h0 h1 (accAt V c (t.val - 1) (pred_lt t)) := by
  obtain ⟨n, hn⟩ := t
  cases n with
  | zero => exact absurd (Nat.zero_mod _) h0
  | succ n => exact (dif_neg h0).trans (dif_neg h1)
theorem accAt_last (c : Dev nD) (t : Fin cfg0.N) (h1 : t.val % 8 = 7) :
    accAt V c t.val t.isLt = accLast V c t h1 (accAt V c (t.val - 1) (pred_lt t)) := by
  obtain ⟨n, hn⟩ := t
  cases n with
  | zero => exact absurd (show (0 : ℕ) % 8 = 7 from h1) (Nat.zero_mod 8 ▸ (by decide : ¬(0 : ℕ) = 7))
  | succ n =>
    have h1' : (n + 1) % 8 = 7 := h1
    exact (dif_neg (by omega)).trans (dif_pos h1)

/-- What the output's staging buffer holds after the body at point `t`: at a last tile the copy of the accumulator; elsewhere
    the window is idle and nothing consults this value. -/
def outAt (c : Dev nD) (t : Fin cfg0.N) : Vec F S1x128x128 .f32 :=
  if h1 : t.val % 8 = 7 then outLast V c t h1 (accAt V c (t.val - 1) (pred_lt t)) else View.canon []

theorem outAt_last (c : Dev nD) (t : Fin cfg0.N) (h1 : t.val % 8 = 7) :
    outAt V c t = outLast V c t h1 (accAt V c (t.val - 1) (pred_lt t)) := dif_pos h1

/-! ## The invariant and the proof data -/

/-- The scoped buffers that are neither a staging buffer of this call nor its accumulator: the second call's six staging
    buffers, each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the call is handed besides its windows: the accumulator at anything, the other scoped buffers, the generator register. -/
theorem PhiA0_eq (c : Dev nD) :
    (Pipeline.ΦA spec0 c : sProp 𝕄)
      = iprop(iprop((∃ d, owns (c : Thread nD τ) accM fullShare d) ∗ others (F := F) c) ∗ (∃ r, prngReg c r)) := by
  unfold Pipeline.ΦA others; rw [scopedRest0_eq]; simp only [accM, owns_whole]; try rfl

/-- The invariant before position `n`: before the first point what the call was handed; afterwards the accumulator at
    what the point before left. -/
def PhiS (c : Dev nD) : (n : ℕ) → n ≤ cfg0.N → sProp 𝕄
  | 0, _ => Pipeline.ΦA spec0 c
  | n + 1, hn => iprop(iprop(owns (c : Thread nD τ) accM fullShare (accAt V c n hn) ∗ others (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare (accAt V c n hn) ∗ others (F := F) c) ∗ (∃ r, prngReg c r)) := rfl
theorem PhiS_pos (c : Dev nD) (n : ℕ) (h : n ≤ cfg0.N) (hz : n ≠ 0) :
    PhiS V c n h = iprop(iprop(owns (c : Thread nD τ) accM fullShare (accAt V c (n - 1) (by omega)) ∗ others (F := F) c) ∗ (∃ r, prngReg c r)) := by
  cases n with
  | zero => exact absurd rfl hz
  | succ n => rfl

/-- The call's proof data on core `c`: the arrays as the call finds them; after the body at point `t` the q window's
    buffer at its block and the output's at `outAt`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = outAt V c t := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the point's position modulo eight says which case it is in; the invariant hands the body the
    accumulator (at anything before the very first point, at what the point before left afterwards) and takes it back
    at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [live0_0 t], after0_0]
  by_cases h0 : t.val % 8 = 0
  · have hnl := notLast_of_first t h0
    rw [Dat.leavesExact_idle (dat0 V c) 1 t (idle0_1 _ hnl) (noFlush0_1 t hnl)]
    rw [accAt_first V c t h0]
    unfold accFirst
    by_cases hz : t.val = 0
    · rw [PhiS_castSucc V c t, PhiS_zero V c _ _ hz, PhiA0_eq]
      iintro ⟨⟨⟨HS, Hoth⟩, Hg⟩, Ho, ⟨%d0, H0⟩, ⟨%d1, H1⟩⟩
      iapply ((runFirst c (grid0.coords t) (ms0_0 t) (hs0_0 t) (ms0_1 t) (hs0_1 t) accM (Memref.isWhole_whole _) ((isFirst_iff t).mpr h0) hnl (iblk0 V c 0 t)).2 _ Set.univ _)
      isplitl [H0]; · iexact H0
      isplitl [H1]; · iexact H1
      isplitl [HS]; · iexact HS
      iintro ⟨H0, H1, ⟨%es, HS⟩⟩
      isplitl [HS Hoth Hg]
      · isplitl [HS Hoth]
        · isplitl [HS]
          · unfold owns; iexists _; isplitr
            swap; · iexact HS
            ipureintro; exact View.read_writes_eq_canon _ _ _ (coverFirst V c t h0)
          iexact Hoth
        iexact Hg
      isplitl [Ho]; · iexact Ho
      isplitl [H0]; · iexact H0
      iexists _; iexact H1
    · rw [PhiS_castSucc V c t, PhiS_pos V c _ _ hz]
      iintro ⟨⟨⟨HS, Hoth⟩, Hg⟩, Ho, ⟨%d0, H0⟩, ⟨%d1, H1⟩⟩
      iapply ((runFirst c (grid0.coords t) (ms0_0 t) (hs0_0 t) (ms0_1 t) (hs0_1 t) accM (Memref.isWhole_whole _) ((isFirst_iff t).mpr h0) hnl (iblk0 V c 0 t)).2 _ Set.univ _)
      isplitl [H0]; · iexact H0
      isplitl [H1]; · iexact H1
      isplitl [HS]; · iexists _; iexact HS
      iintro ⟨H0, H1, ⟨%es, HS⟩⟩
      isplitl [HS Hoth Hg]
      · isplitl [HS Hoth]
        · isplitl [HS]
          · unfold owns; iexists _; isplitr
            swap; · iexact HS
            ipureintro; exact View.read_writes_eq_canon _ _ _ (coverFirst V c t h0)
          iexact Hoth
        iexact Hg
      isplitl [Ho]; · iexact Ho
      isplitl [H0]; · iexact H0
      iexists _; iexact H1
  · have hz : t.val ≠ 0 := fun e => h0 (by rw [e])
    rw [PhiS_castSucc V c t, PhiS_pos V c _ _ hz]
    by_cases h1 : t.val % 8 = 7
    · rw [show (dat0 V c).leavesExact 1 t = owns (c : Thread nD τ) (ms0_1 t) fullShare ((dat0 V c).after 1 t) from by
        unfold Dat.leavesExact; rw [live0_1 _ ((isLast_iff t).mpr h1)], after0_1]
      rw [accAt_last V c t h1, outAt_last V c t h1]
      unfold accLast outLast
      iintro ⟨⟨⟨HS, Hoth⟩, Hg⟩, Ho, ⟨%d0, H0⟩, ⟨%d1, H1⟩⟩
      iapply ((runLast c (grid0.coords t) (ms0_0 t) (hs0_0 t) (ms0_1 t) (hs0_1 t) accM (Memref.isWhole_whole _) (notFirst_of_last t h1) ((isLast_iff t).mpr h1) (iblk0 V c 0 t) _).2.2 Set.univ _)
      isplitl [H0]; · iexact H0
      isplitl [H1]; · iexists _; iexact H1
      isplitl [HS]; · iexact HS
      iintro ⟨H0, ⟨%e1, H1⟩, ⟨%es, HS⟩⟩
      isplitl [HS Hoth Hg]
      · isplitl [HS Hoth]
        · isplitl [HS]
          · unfold owns; iexists _; isplitr
            swap; · iexact HS
            ipureintro; exact View.read_writes_eq_canon _ _ _ (coverLastAcc V c t h1 _)
          iexact Hoth
        iexact Hg
      isplitl [Ho]; · iexact Ho
      isplitl [H0]; · iexact H0
      unfold owns; iexists _; isplitr
      swap; · iexact H1
      ipureintro; exact View.read_writes_eq_canon _ _ _ (coverLastOut V c t h1 _)
    · have hnl : ¬isLast (grid0.coords t) := fun h => h1 ((isLast_iff t).mp h)
      rw [Dat.leavesExact_idle (dat0 V c) 1 t (idle0_1 _ hnl) (noFlush0_1 t hnl)]
      rw [accAt_middle V c t h0 h1]
      unfold accMiddle
      iintro ⟨⟨⟨HS, Hoth⟩, Hg⟩, Ho, ⟨%d0, H0⟩, ⟨%d1, H1⟩⟩
      iapply ((runMiddle c (grid0.coords t) (ms0_0 t) (hs0_0 t) (ms0_1 t) (hs0_1 t) accM (Memref.isWhole_whole _) (fun h => h0 ((isFirst_iff t).mp h)) hnl (iblk0 V c 0 t) _).2 _ Set.univ _)
      isplitl [H0]; · iexact H0
      isplitl [H1]; · iexact H1
      isplitl [HS]; · iexact HS
      iintro ⟨H0, H1, ⟨%es, HS⟩⟩
      isplitl [HS Hoth Hg]
      · isplitl [HS Hoth]
        · isplitl [HS]
          · unfold owns; iexists _; isplitr
            swap; · iexact HS
            ipureintro; exact View.read_writes_eq_canon _ _ _ (coverMiddle V c t h0 h1 _)
          iexact Hoth
        iexact Hg
      isplitl [Ho]; · iexact Ho
      isplitl [H0]; · iexact H0
      iexists _; iexact H1

/-- The body obligation of the first call, at every point. -/
theorem body_obligation0 (c : Dev nD) : BodyObligation (dat0 (F := F) V c) (defs₀ (F := F)) Variants.none () Set.univ := fun t => by
  rw [bigSep_W0, bigSep_W0]
  exact sound_body0 V c t

/-- What the call is handed is the invariant before the first point; -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- and after the last point the invariant gives it back, the accumulator's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS, Hoth⟩, Hg⟩
  isplitl [HS Hoth]
  · isplitl [HS]
    · iexists _; iexact HS
    iexact Hoth
  iexact Hg

end Cert.KernelIdeal.Hand

end
-- ==== Proof.KernelIdeal.OutRegion.lean ====
/-
  The second pallas_call, one grid point at a time: a block of 8192 rows of q (one batch entry, one row tile) times that
  batch entry's 128 x 128 attention matrix, stored whole into the output's block. Everything is stated at a parameter
  `V`, the contents of the TensorCore's buffers when the call is entered.
-/
import proofs.«167569_j84155589197863_1_alg».proof.Proof.Gen.KernelIdeal.Launch
import proofs.«167569_j84155589197863_1_alg».proof.Proof.Gen.KernelIdeal.Skeleton
import proofs.«167569_j84155589197863_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The q window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The attention window's staging buffer holds its block at every point: where it is not fetched again the block
    index has not moved (it depends on the batch coordinate alone). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole q / output block and the whole attention block, as the body's rectangles. -/
abbrev rQ : Rect S1x8192x128 := Rect.unit (s := S1x8192x128) ![0, 0, 0] S1x8192x128.size inb_S1x8192x128_S1x8192x128_0_0_0
abbrev rA : Rect S1x128x128 := Rect.unit (s := S1x128x128) ![0, 0, 0] S1x128x128.size inb_S1x128x128_S1x128x128_0_0_0

/-- What the body leaves in the output's staging buffer: its one store, of the product of the two loaded blocks. -/
def out1_2 (x0 : Vec F S1x8192x128 .f32) (x1 : Vec F S1x128x128 .f32) : Vec F S1x8192x128 .f32 :=
  View.canon [⟨rQ, k1_pay1 (View.ld x0 rQ) (View.ld x1 rA)⟩]

/-- The one store covers the buffer. -/
theorem cover1_2 (p0 : Vec F S1x8192x128 .f32) (y : S1x8192x128.Idx) :
    ∃ pc ∈ ([⟨rQ, p0⟩] : List (View.Piece (Elt F) S1x8192x128 .f32)), y ∈ pc.1.set :=
  View.cover_of_tiled [⟨rQ, p0⟩] S1x8192x128.size (by rfl) y

set_option maxHeartbeats 1000000 in
/-- The body on whole staging buffers — the two inputs at their contents, the output's at anything — runs to the end
    with the inputs as they were and the output's buffer at `out1_2`. -/
theorem sound_kernel1 (c : Dev nD) (E : Set ℕ) (i : grid1.Coords) (arg2 : Memref sig .tc .vmem S1x8192x128 .f32) (harg2 : arg2.IsWhole)
    (arg3 : Memref sig .tc .vmem S1x128x128 .f32) (harg3 : arg3.IsWhole) (arg4 : Memref sig .tc .vmem S1x8192x128 .f32) (harg4 : arg4.IsWhole)
    (x0 : Vec F S1x8192x128 .f32) (x1 : Vec F S1x128x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__out_kernel i arg2 harg2 arg3 harg3 arg4 harg4) K := by
  simp only [cc1__out_kernel_eq_skeleton]; unfold cc1__out_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The call's proof data on core `c`: the arrays as the call finds them; after the body at point `t` each input's
    buffer at its block and the output's at `out1_2` of the two input blocks; nothing kept between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the second call, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Run.lean ====
/-
  The whole program as five segments in order — the reshape of x into q, the first pallas_call, the softmax lines, the
  second pallas_call, the reshape of the result — with the contents of every unscoped buffer named at each boundary:
  a host stretch applies its operations to the boundary before it; a pallas_call replaces its arrays by what its
  write-backs leave and keeps every other buffer. Every weakly fair execution terminates with every unscoped buffer at
  the last boundary's contents.
-/
import proofs.«167569_j84155589197863_1_alg».proof.Proof.Gen.KernelIdeal.Launch
import proofs.«167569_j84155589197863_1_alg».proof.Proof.Gen.KernelIdeal.Skeleton
import proofs.«167569_j84155589197863_1_alg».proof.Proof.Gen.KernelIdeal.Points
import proofs.«167569_j84155589197863_1_alg».proof.Proof.KernelIdeal.EnergyRegion
import proofs.«167569_j84155589197863_1_alg».proof.Proof.KernelIdeal.OutRegion
import proofs.«167569_j84155589197863_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the reshape of x into q (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first call's exit: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the softmax lines (the second call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second call's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the last reshape (the end). -/
abbrev W5 : Dev nD → Valuation τ sig (Elt F) := fun c => StableHlo.after hostOps2 (W4 m c)

/-! ## The proof data family and what rides beside the buffers -/

abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The two calls as segments -/

set_option backward.isDefEq.respectTransparency.types false in
/-- The first call: entered from every unscoped buffer at `W1`, left at `W2`. Its arrays are split out of the unscoped
    buffers and put back at the exit contents; the generator register and the scoped rest go into the call's invariant
    (which keeps the accumulator) and come back out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W3`, left at `W4`; it keeps nothing between points. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- From any memory with zero counters every weakly fair execution of the program terminates, nothing faulting, and
    every final state has every unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => (show iprop(StableHlo.held (c : Thread nD τ) (Pipeline.ucRefs τ sig) (W5 m c) ∗ R c)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-! ## The argument reaches the end as launched -/

/-- No host line writes the argument and no call has it among its arrays, so it reaches the end as launched. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide : main_arg0 ∉ hostOps2_W)
    _ = W3 m c (Proc.devRef .tc main_arg0) := W4_of_ne m c main_arg0 (by decide)
    _ = W2 m c (Proc.devRef .tc main_arg0) := StableHlo.after_of_writes_sub hostOps1 _ hostOps1_writes (by decide : main_arg0 ∉ hostOps1_W)
    _ = W1 m c (Proc.devRef .tc main_arg0) := W2_of_ne m c main_arg0 (by decide)
    _ = W0 m c (Proc.devRef .tc main_arg0) := StableHlo.after_of_writes_sub hostOps0 _ hostOps0_writes (by decide : main_arg0 ∉ hostOps0_W)
    _ = m ((c : Thread nD τ).loc main_arg0) := rfl

/-- The frame: the program runs to the end and its argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W5_main_arg0 m c)) (run_all m ρ)

end Cert.KernelIdeal.Hand

end
-- ==== Proof.KernelIdeal.EnergyPieces.lean ====
/-
  What each case of the first call's body leaves, as a value: the accumulator is cleared and then has the tile's Gram
  matrix added at a first tile, has it added to what it held at the other tiles, and the output's buffer takes a copy of
  the accumulator at a last tile.
-/
import proofs.«167569_j84155589197863_1_alg».proof.Proof.Gen.KernelIdeal.Launch
import proofs.«167569_j84155589197863_1_alg».proof.Proof.Gen.KernelIdeal.Skeleton
import proofs.«167569_j84155589197863_1_alg».proof.Proof.Gen.KernelIdeal.Points
import proofs.«167569_j84155589197863_1_alg».proof.Proof.KernelIdeal.EnergyRegion
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- One accumulation step: the accumulator's contents `xs` plus the Gram matrix of the tile `x`. -/
abbrev step (x : Vec F S1x8192x128 .f32) (xs : Vec F S128x128 .f32) : Vec F S128x128 .f32 := k0_pay2 x xs

theorem acc_middle (c : Dev nD) (t : Fin cfg0.N) (h0 : ¬t.val % 8 = 0) (h1 : ¬t.val % 8 = 7) (xs : Vec F S128x128 .f32) :
    accMiddle V c t h0 h1 xs = step (iblk0 V c 0 t) xs := by
  unfold accMiddle runMiddle
  dsimp only
  rw [View.canon_unit_zero hz2]
  simp only [View.readAt_eq_ld, Memref.IsWhole.read_unread, View.ld_unit_zero (S := S1x8192x128) hz3, View.ld_unit_zero (S := S128x128) hz2]
  exact congrArg (k0_pay2 (iblk0 V c 0 t)) ((Memref.isWhole_whole cc0_scratch0).read_unread xs)

theorem acc_first (c : Dev nD) (t : Fin cfg0.N) (h0 : t.val % 8 = 0) :
    accFirst V c t h0 = step (iblk0 V c 0 t) (k0_pay1 (F := F)) := by
  unfold accFirst runFirst
  dsimp only
  sl_unfold_words
  rw [View.canon_cons_unit_zero (S := S128x128) hz2, View.readCov_unit_zero (S := S128x128) _ hz2]
  simp only [View.readAt_eq_ld, Memref.IsWhole.read_unread, View.ld_unit_zero (S := S1x8192x128) hz3, View.ld_unit_zero (S := S128x128) hz2]

theorem acc_last (c : Dev nD) (t : Fin cfg0.N) (h1 : t.val % 8 = 7) (xs : Vec F S128x128 .f32) :
    accLast V c t h1 xs = step (iblk0 V c 0 t) xs := by
  unfold accLast runLast
  dsimp only
  sl_unfold_words
  rw [View.canon_unit_zero hz2]
  simp only [View.readAt_eq_ld, Memref.IsWhole.read_unread, View.ld_unit_zero (S := S1x8192x128) hz3, View.ld_unit_zero (S := S128x128) hz2]
  exact congrArg (k0_pay2 (iblk0 V c 0 t)) ((Memref.isWhole_whole cc0_scratch0).read_unread xs)

theorem out_last (c : Dev nD) (t : Fin cfg0.N) (h1 : t.val % 8 = 7) (xs : Vec F S128x128 .f32) :
    outLast V c t h1 xs = k0_pay3 (step (iblk0 V c 0 t) xs) := by
  unfold outLast runLast
  dsimp only
  sl_unfold_words
  rw [View.canon_unit_zero hz3, View.readCov_unit_zero (S := S128x128) _ hz2]
  simp only [View.readAt_eq_ld, Memref.IsWhole.read_unread, View.ld_unit_zero (S := S1x8192x128) hz3, View.ld_unit_zero (S := S128x128) hz2]
  exact congrArg (fun z => k0_pay3 (k0_pay2 (iblk0 V c 0 t) z)) ((Memref.isWhole_whole cc0_scratch0).read_unread xs)

end Cert.KernelIdeal.Hand

end
-- ==== Proof.LibDot.lean ====
/-
  A rows-by-columns matrix product `[M,K] · [K,N]` read at an entry, at the ideal values: entry (i, j) is the sum over
  the contracted coordinate k of L(i,k) · R(k,j) — for the host's `dot_general` and for a kernel's `tpu.matmul`
  accumulated into a zero splat alike, whatever witness of well-formedness the dimension record carries. From it: the
  rows `o … o+m-1` of a product are the product of those rows of the left operand.
-/
import Idealize.ShloMosaic.Lib.ValueIdx
import Idealize.ShloMosaic.PureOps.Ideal.Laws
import Idealize.ShloMosaic.Lib.KernelVsHost

noncomputable section

namespace Cert.LibDot

open Idealize.ShloMosaic Idealize.ShloMosaic.ValueIdx

variable {M K N : Nat} {φ₁ φ₂ : FTy}

/-- The dimension record of a rows-by-columns product: the left operand contracted on its axis 1, the right on its
    axis 0, no batch axis. -/
abbrev rc (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ := ⟨[1], [0], [0], [1], [], [], wf⟩

/-- The host's product at entry (i, j). -/
theorem hostDot_apply (wf : DotDims.WF (⟨2, ![M, K]⟩ : Shape) ⟨2, ![K, N]⟩ ⟨2, ![M, N]⟩ [1] [0] [0] [1] [] [])
    (L : FVec Ideal ⟨2, ![M, K]⟩ φ₁) (R : FVec Ideal ⟨2, ![K, N]⟩ φ₂) (i : Fin M) (j : Fin N) :
    Host.dotGeneral (rc wf) none L R (ix2 i j) = ∑ k : Fin K, L (ix2 i k) * R (ix2 k j) := by
  simp only [Host.dotGeneral]
  rw [Ideal.dotGeneral_apply, ← Equiv.sum_comp (contrEquiv1 (rc wf) K rfl rfl).symm]
  refine Finset.sum_congr rfl fun k _ => ?_
  have hk := contrEquiv1_symm_val (rc wf) K rfl rfl k
  have el : (rc wf).lhsIdx (ix2 i j) ((contrEquiv1 (rc wf) K rfl rfl).symm k) = ix2 i k := funext fun a => Fin.ext (by
    match a with
    | ⟨0, _⟩ => rfl
    | ⟨1, _⟩ => exact ((rc wf).lhsIdx_val_of_single rfl _ _).trans hk)
  have er : (rc wf).rhsIdx (ix2 i j) ((contrEquiv1 (rc wf) K rfl rfl).symm k) = ix2 k j := funext fun a => Fin.ext (by
    match a with
    | ⟨0, _⟩ => exact ((rc wf).rhsIdx_val_of_single rfl _ _).trans hk
    | ⟨1, _⟩ => rfl)
  rw [el, er]

/-- A kernel's product into a zero accumulator at entry (i, j): the same sum. -/
theorem matmulZero_apply (wf : DotDims.WF (⟨2, ![M, K]⟩ : Shape) ⟨2, ![K, N]⟩ ⟨2, ![M, N]⟩ [1] [0] [0] [1] [] [])
    (L : FVec Ideal ⟨2, ![M, K]⟩ φ₁) (R : FVec Ideal ⟨2, ![K, N]⟩ φ₂) (i : Fin M) (j : Fin N) :
    matmul (rc wf) none L R (constant ⟨2, ![M, N]⟩ .f32 0x00000000#32) (ix2 i j) = ∑ k : Fin K, L (ix2 i k) * R (ix2 k j) := by
  rw [matmul_zero_eq_dotGeneral]
  exact hostDot_apply wf L R i j

end Cert.LibDot

end
-- ==== Proof.KernelIdeal.Payloads.lean ====
/-
  The two bodies' arithmetic at the ideal values, entry by entry. With every float an extended real and a change of
  format the identity: the accumulation step adds to the accumulator's entry (l, m) the sum over the tile's 8192 rows n of
  x(n, l) * x(n, m); the cleared accumulator is zero everywhere; the copy into the output's block reads the accumulator;
  and the second body's entry (n, m) is the sum over k of q(n, k) * a(k, m).
-/
import proofs.«167569_j84155589197863_1_alg».proof.Proof.Gen.KernelIdeal.Skeleton
import proofs.«167569_j84155589197863_1_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-- A product that contracts the LEADING axis of both operands, `[K,M]` and `[K,N]`, into a zero accumulator: entry
    (i, j) is the sum over k of L(k,i) * R(k,j). -/
theorem gramZero_apply {K M N : Nat} {φ₁ φ₂ : FTy}
    (wf : DotDims.WF (⟨2, ![K, M]⟩ : Shape) ⟨2, ![K, N]⟩ ⟨2, ![M, N]⟩ [0] [0] [1] [1] [] [])
    (L : FVec Ideal ⟨2, ![K, M]⟩ φ₁) (R : FVec Ideal ⟨2, ![K, N]⟩ φ₂) (i : Fin M) (j : Fin N) :
    matmul (⟨[0], [0], [1], [1], [], [], wf⟩ : DotDims (⟨2, ![K, M]⟩ : Shape) ⟨2, ![K, N]⟩ ⟨2, ![M, N]⟩) none L R
      (constant ⟨2, ![M, N]⟩ .f32 0x00000000#32) (ix2 i j) = ∑ k : Fin K, L (ix2 k i) * R (ix2 k j) := by
  let d : DotDims (⟨2, ![K, M]⟩ : Shape) ⟨2, ![K, N]⟩ ⟨2, ![M, N]⟩ := ⟨[0], [0], [1], [1], [], [], wf⟩
  show FloatOps.matmul d none L R (constant ⟨2, ![M, N]⟩ .f32 0x00000000#32) (ix2 i j) = _
  rw [Ideal.matmul_constant_zero_apply, ← Equiv.sum_comp (contrEquiv1 d K rfl rfl).symm]
  refine Finset.sum_congr rfl fun k _ => ?_
  have hk := contrEquiv1_symm_val d K rfl rfl k
  have el : d.lhsIdx (ix2 i j) ((contrEquiv1 d K rfl rfl).symm k) = ix2 k i := funext fun a => Fin.ext (by
    match a with
    | ⟨0, _⟩ => exact (d.lhsIdx_val_of_single rfl _ _).trans hk
    | ⟨1, _⟩ => rfl)
  have er : d.rhsIdx (ix2 i j) ((contrEquiv1 d K rfl rfl).symm k) = ix2 k j := funext fun a => Fin.ext (by
    match a with
    | ⟨0, _⟩ => exact (d.rhsIdx_val_of_single rfl _ _).trans hk
    | ⟨1, _⟩ => rfl)
  rw [el, er]

/-- The cleared accumulator is zero at every entry. -/
theorem cleared_apply (i : S128x128.Idx) : k0_pay1 (F := Ideal) i = 0 := by
  unfold k0_pay1
  simp only [shapeCast_self]
  show Ideal.ofBits .f32 0x00000000#32 = 0
  exact Ideal.ofBits_zero_f32

/-- One accumulation step at entry (l, m). -/
theorem step_apply (x : Vec Ideal S1x8192x128 .f32) (xs : Vec Ideal S128x128 .f32) (l m : Fin 128) :
    k0_pay2 (F := Ideal) x xs (ix2 l m) = xs (ix2 l m) + ∑ n : Fin 8192, x (ix3 (0 : Fin 1) n l) * x (ix3 (0 : Fin 1) n m) := by
  unfold k0_pay2
  simp only [shapeCast_self]
  rw [addf_apply]
  refine congrArg (xs (ix2 l m) + ·) ?_
  refine (gramZero_apply (K := 8192) (M := 128) (N := 128) dot_S8192x128_S8192x128_S128x128_0_0_1_1_n_n_wf _ _ l m).trans ?_
  refine Finset.sum_congr rfl fun n _ => ?_
  simp only [truncf_apply, shapeCast_1ab_ab_apply]

/-- The copy into the output's block reads the accumulator. -/
theorem copy_apply (v : Vec Ideal S128x128 .f32) (u : Fin 1) (l m : Fin 128) :
    k0_pay3 (F := Ideal) v (ix3 u l m) = v (ix2 l m) := by
  unfold k0_pay3
  exact shapeCast_ab_1ab_apply v _ u l m

/-- The second body at entry (n, m) of its block. -/
theorem product_apply (x0 : Vec Ideal S1x8192x128 .f32) (x1 : Vec Ideal S1x128x128 .f32) (u : Fin 1) (n : Fin 8192) (m : Fin 128) :
    k1_pay1 (F := Ideal) x0 x1 (ix3 u n m) = ∑ k : Fin 128, x0 (ix3 (0 : Fin 1) n k) * x1 (ix3 (0 : Fin 1) k m) := by
  unfold k1_pay1
  rw [shapeCast_ab_1ab_apply]
  refine (Cert.LibDot.matmulZero_apply (M := 8192) (K := 128) (N := 128) dot_S8192x128_S128x128_S8192x128_1_0_0_1_n_n_wf _ _ n m).trans ?_
  refine Finset.sum_congr rfl fun k _ => ?_
  simp only [truncf_apply, shapeCast_1ab_ab_apply]

end Cert.KernelIdeal.Hand

end
-- ==== Proof.KernelIdeal.EnergyValue.lean ====
/-
  What the first pallas_call leaves in its result array, at the ideal values. Over one batch entry b the accumulator
  after tile j holds ((0 + T_0) + T_1) + ... + T_j, where T_p(l, m) is the sum over the 8192 rows n of tile p of
  q(b, n, l) * q(b, n, m); after the eighth tile that is the sum over all 65536 rows (a finite sum of extended reals
  regrouped by tiles: addition is associative and commutative there), and that is what the last tile copies out and the
  pipeline writes back into row b of the result. The result array is therefore the Gram matrix of each batch entry.
-/
import proofs.«167569_j84155589197863_1_alg».proof.Proof.KernelIdeal.EnergyPieces
import proofs.«167569_j84155589197863_1_alg».proof.Proof.KernelIdeal.Payloads
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The batch entry of grid position `n`, and row `n` of tile `p` among the 65536 rows (both total: reduced into range). -/
def bIdx (n : ℕ) : Fin 8 := ⟨n / 8 % 8, Nat.mod_lt _ (by decide)⟩
def rIdx (p : ℕ) (n : Fin 8192) : Fin 65536 := ⟨(p * 8192 + n.val) % 65536, Nat.mod_lt _ (by decide)⟩

/-- The block indices of the two windows, decided over the grid: point `t` is tile `t % 8` of batch entry `t / 8`. -/
theorem idx_facts0 : ∀ t : Fin cfg0.N, win0_0.index t (0 : Fin 3) = t.val / 8 ∧ win0_0.index t (1 : Fin 3) = t.val % 8
    ∧ win0_0.index t (2 : Fin 3) = 0 ∧ win0_1.index t (0 : Fin 3) = t.val / 8 ∧ win0_1.index t (1 : Fin 3) = 0
    ∧ win0_1.index t (2 : Fin 3) = 0 :=
  (by decide +kernel : ∀ t : Fin grid0.N, _)

/-- The q block of point `t` reads q at batch entry `t / 8`, row `(t % 8) * 8192 + n`. -/
theorem iblk0_apply (c : Dev nD) (t : Fin cfg0.N) (u : Fin 1) (n : Fin 8192) (l : Fin 128) :
    iblk0 V c 0 t (ix3 u n l) = V c main_v0 (ix3 (bIdx t.val) (rIdx (t.val % 8) n) l) := by
  obtain ⟨e0, e1, e2, -, -, -⟩ := idx_facts0 t
  have ht : t.val < 64 := lt_of_lt_of_eq t.isLt N_0
  unfold iblk0
  rw [View.read_apply]
  show V c main_v0 _ = V c main_v0 _
  congr 1
  funext a; apply Fin.ext
  match a with
  | ⟨0, _⟩ => show win0_0.index t (0 : Fin 3) * 1 + 1 * u.val = t.val / 8 % 8; have := u.isLt; omega
  | ⟨1, _⟩ => show win0_0.index t (1 : Fin 3) * 8192 + 1 * n.val = (t.val % 8 * 8192 + n.val) % 65536; have := n.isLt; omega
  | ⟨2, _⟩ => show win0_0.index t (2 : Fin 3) * 128 + 1 * l.val = l.val; omega

/-- Tile `p`'s contribution to entry (l, m) of batch entry `b`'s Gram matrix. -/
def tile (q : S8x65536x128.Idx → EReal) (b : Fin 8) (p : ℕ) (l m : Fin 128) : EReal :=
  ∑ n : Fin 8192, q (ix3 b (rIdx p n) l) * q (ix3 b (rIdx p n) m)

/-- The accumulator after tile `j` of batch entry `b`, in the order the kernel adds. -/
def chain (q : S8x65536x128.Idx → EReal) (b : Fin 8) : ℕ → Fin 128 → Fin 128 → EReal
  | 0, l, m => 0 + tile q b 0 l m
  | j + 1, l, m => chain q b j l m + tile q b (j + 1) l m

/-- One step at point `t`: the point's tile is added. -/
theorem step_at (c : Dev nD) (t : Fin cfg0.N) (xs : Vec Ideal S128x128 .f32) (l m : Fin 128) :
    step (iblk0 V c 0 t) xs (ix2 l m) = xs (ix2 l m) + tile (V c main_v0) (bIdx t.val) (t.val % 8) l m := by
  refine (step_apply (iblk0 V c 0 t) xs l m).trans ?_
  refine congrArg (xs (ix2 l m) + ·) (Finset.sum_congr rfl fun n _ => ?_)
  rw [iblk0_apply, iblk0_apply]

/-- The accumulator after grid position `n` is the chain of its batch entry up to its tile: by induction on the position. -/
theorem accAt_eq (c : Dev nD) : ∀ (n : ℕ) (hn : n < cfg0.N) (l m : Fin 128),
    accAt V c n hn (ix2 l m) = chain (V c main_v0) (bIdx n) (n % 8) l m
  | 0, hn, l, m => by
    rw [show accAt V c 0 hn = accFirst V c ⟨0, hn⟩ (Nat.zero_mod _) from rfl, acc_first]
    refine (step_at V c ⟨0, hn⟩ _ l m).trans ?_
    rw [cleared_apply]; rfl
  | n + 1, hn, l, m => by
    by_cases h0 : (n + 1) % 8 = 0
    · rw [accAt_first V c ⟨n + 1, hn⟩ h0, acc_first]
      refine (step_at V c ⟨n + 1, hn⟩ _ l m).trans ?_
      rw [cleared_apply]
      show 0 + tile _ _ ((n + 1) % 8) l m = chain _ _ ((n + 1) % 8) l m
      rw [h0]; rfl
    · have ih := accAt_eq c n (Nat.lt_of_succ_lt hn) l m
      have e1 : (n + 1) % 8 = n % 8 + 1 := by omega
      have e2 : bIdx (n + 1) = bIdx n := Fin.ext (by show (n + 1) / 8 % 8 = n / 8 % 8; omega)
      have hstep : accAt V c (n + 1) hn = step (iblk0 V c 0 ⟨n + 1, hn⟩) (accAt V c n (Nat.lt_of_succ_lt hn)) := by
        by_cases h1 : (n + 1) % 8 = 7
        · exact (accAt_last V c ⟨n + 1, hn⟩ h1).trans (acc_last V c _ h1 _)
        · exact (accAt_middle V c ⟨n + 1, hn⟩ h0 h1).trans (acc_middle V c _ h0 h1 _)
      rw [hstep]
      refine (step_at V c ⟨n + 1, hn⟩ _ l m).trans ?_
      rw [ih]
      show chain _ (bIdx n) (n % 8) l m + tile _ (bIdx (n + 1)) ((n + 1) % 8) l m = chain _ (bIdx (n + 1)) ((n + 1) % 8) l m
      rw [e1, e2]; rfl

/-- After the eighth tile the chain is the sum over all 65536 rows: the rows are the eight tiles' rows, tile by tile. -/
theorem chain_full (q : S8x65536x128.Idx → EReal) (b : Fin 8) (l m : Fin 128) :
    chain q b 7 l m = ∑ k : Fin 65536, q (ix3 b k l) * q (ix3 b k m) := by
  have h : ∑ k : Fin 65536, q (ix3 b k l) * q (ix3 b k m) = ∑ p : Fin 8, tile q b p.val l m := by
    rw [← Equiv.sum_comp (finProdFinEquiv (m := 8) (n := 8192)) (fun k : Fin 65536 => q (ix3 b k l) * q (ix3 b k m)), Fintype.sum_prod_type]
    refine Finset.sum_congr rfl fun p _ => Finset.sum_congr rfl fun n _ => ?_
    have e : (finProdFinEquiv (p, n) : Fin 65536) = rIdx p.val n := Fin.ext (by
      show n.val + 8192 * p.val = (p.val * 8192 + n.val) % 65536
      have := p.isLt; have := n.isLt; omega)
    rw [e]
  rw [h, Fin.sum_univ_eight]
  simp only [chain, zero_add]
  rfl

/-- The Gram matrix of each batch entry of q. -/
def gram (q : S8x65536x128.Idx → EReal) : S8x128x128.Idx → EReal :=
  fun i => ∑ k : Fin 65536, q (ix3 (i 0) k (i 1)) * q (ix3 (i 0) k (i 2))

theorem gram_apply (q : S8x65536x128.Idx → EReal) (b : Fin 8) (l m : Fin 128) :
    gram q (ix3 b l m) = ∑ k : Fin 65536, q (ix3 b k l) * q (ix3 b k m) := rfl

/-- What a last tile's point writes back is its batch entry's row of the Gram matrix. -/
theorem flushed_eq0 (c : Dev nD) (t : Fin cfg0.N) (hf : (cfg0.win 1).flush t = true) :
    (dat0 V c).flushed 1 t = ((cfg0.win 1).blk t).view.read (Elt Ideal) (gram (V c main_v0)) := by
  have h7 : t.val % 8 = 7 := (flush0_1 t).mp hf
  have ht : t.val < 64 := lt_of_lt_of_eq t.isLt N_0
  obtain ⟨-, -, -, e0, e1, e2⟩ := idx_facts0 t
  show (cfg0.win 1).cut (grid0.coords t) ((dat0 V c).after 1 t) = _
  rw [after0_1, outAt_last V c t h7, out_last, ← acc_last V c t h7, ← accAt_last V c t h7]
  funext y
  obtain ⟨u, l, m, rfl⟩ : ∃ (u : Fin 1) (l m : Fin 128), y = ix3 u l m := ⟨y 0, y 1, y 2, eq_ix3 y⟩
  have key : ∀ (G : S8x128x128.Idx → EReal), ((cfg0.win 1).blk t).view.read (Elt Ideal) G (ix3 u l m)
      = G (((cfg0.win 1).blk t).view.emb (ix3 u l m)) := fun G => rfl
  refine Eq.trans ?_ (key (gram (V c main_v0))).symm
  have hemb : ((cfg0.win 1).blk t).view.emb (ix3 u l m) = ix3 (bIdx t.val) l m := by
    funext a; apply Fin.ext
    match a with
    | ⟨0, _⟩ => show win0_1.index t (0 : Fin 3) * 1 + 1 * u.val = t.val / 8 % 8; have := u.isLt; omega
    | ⟨1, _⟩ => show win0_1.index t (1 : Fin 3) * 128 + 1 * l.val = l.val; omega
    | ⟨2, _⟩ => show win0_1.index t (2 : Fin 3) * 128 + 1 * m.val = m.val; omega
  rw [hemb, gram_apply]
  refine (copy_apply _ u l m).trans ?_
  rw [accAt_eq V c t.val t.isLt l m, h7, chain_full]

/-- Every index of the result array lies in the block of its batch entry's last tile. -/
theorem cover0 (i : S8x128x128.Idx) : ∃ t : Fin cfg0.N, (cfg0.win 1).flush t = true ∧ i ∈ ((cfg0.win 1).blk t).view.set := by
  have hi0 : (i 0).val < 8 := (i 0).isLt
  have hi1 : (i 1).val < 128 := (i 1).isLt
  have hi2 : (i 2).val < 128 := (i 2).isLt
  have hlt : 8 * (i 0).val + 7 < cfg0.N := by rw [show cfg0.N = 64 from N_0]; omega
  obtain ⟨-, -, -, e0, e1, e2⟩ := idx_facts0 ⟨8 * (i 0).val + 7, hlt⟩
  have e0' : win0_1.index ⟨8 * (i 0).val + 7, hlt⟩ (0 : Fin 3) = (i 0).val := by rw [e0]; show (8 * (i 0).val + 7) / 8 = _; omega
  refine ⟨⟨8 * (i 0).val + 7, hlt⟩, (flush0_1 _).mpr (by show (8 * (i 0).val + 7) % 8 = 7; omega), ?_⟩
  show i ∈ ((View.whole main_v1).slice (win0_1.rect ⟨8 * (i 0).val + 7, hlt⟩)).set
  rw [View.set_slice_whole, Rect.mem_set_unit]
  intro a
  match a with
  | ⟨0, _⟩ => show win0_1.index ⟨8 * (i 0).val + 7, hlt⟩ (0 : Fin 3) * 1 ≤ (i 0).val ∧ (i 0).val < win0_1.index ⟨8 * (i 0).val + 7, hlt⟩ (0 : Fin 3) * 1 + 1; rw [e0']; omega
  | ⟨1, _⟩ => show win0_1.index ⟨8 * (i 0).val + 7, hlt⟩ (1 : Fin 3) * 128 ≤ (i 1).val ∧ (i 1).val < win0_1.index ⟨8 * (i 0).val + 7, hlt⟩ (1 : Fin 3) * 128 + 128; rw [e1]; omega
  | ⟨2, _⟩ => show win0_1.index ⟨8 * (i 0).val + 7, hlt⟩ (2 : Fin 3) * 128 ≤ (i 2).val ∧ (i 2).val < win0_1.index ⟨8 * (i 0).val + 7, hlt⟩ (2 : Fin 3) * 128 + 128; rw [e2]; omega

/-- So the first call's result array ends holding the Gram matrices. -/
theorem energy_final (c : Dev nD) : (dat0 V c).arrAt 1 cfg0.N = gram (V c main_v0) :=
  (dat0 V c).arrAt_eq_of_cover 1 (gram (V c main_v0)) (flushed_eq0 V c) cover0

end Cert.KernelIdeal.Hand

end
-- ==== Proof.KernelIdeal.OutValue.lean ====
/-
  What the second pallas_call leaves in its result array, at the ideal values: every point writes back its own block, the
  blocks tile the array, and entry (b, n, m) is the sum over k of q(b, n, k) * a(b, k, m), a the attention matrices the
  call was handed.
-/
import proofs.«167569_j84155589197863_1_alg».proof.Proof.KernelIdeal.EnergyValue
import proofs.«167569_j84155589197863_1_alg».proof.Proof.KernelIdeal.OutRegion
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The block indices of the three windows, decided over the grid. -/
theorem idx_facts1 : ∀ t : Fin cfg1.N, win1_0.index t (0 : Fin 3) = t.val / 8 ∧ win1_0.index t (1 : Fin 3) = t.val % 8
    ∧ win1_0.index t (2 : Fin 3) = 0 ∧ win1_1.index t (0 : Fin 3) = t.val / 8 ∧ win1_1.index t (1 : Fin 3) = 0
    ∧ win1_1.index t (2 : Fin 3) = 0 ∧ win1_2.index t (0 : Fin 3) = t.val / 8 ∧ win1_2.index t (1 : Fin 3) = t.val % 8
    ∧ win1_2.index t (2 : Fin 3) = 0 :=
  (by decide +kernel : ∀ t : Fin grid1.N, _)

theorem iblk1_0_apply (c : Dev nD) (t : Fin cfg1.N) (u : Fin 1) (n : Fin 8192) (k : Fin 128) :
    iblk1 V c 0 t (ix3 u n k) = V c main_v0 (ix3 (bIdx t.val) (rIdx (t.val % 8) n) k) := by
  obtain ⟨e0, e1, e2, -⟩ := idx_facts1 t
  have ht : t.val < 64 := lt_of_lt_of_eq t.isLt N_1
  unfold iblk1
  rw [View.read_apply]
  show V c main_v0 _ = V c main_v0 _
  congr 1
  funext a; apply Fin.ext
  match a with
  | ⟨0, _⟩ => show win1_0.index t (0 : Fin 3) * 1 + 1 * u.val = t.val / 8 % 8; have := u.isLt; omega
  | ⟨1, _⟩ => show win1_0.index t (1 : Fin 3) * 8192 + 1 * n.val = (t.val % 8 * 8192 + n.val) % 65536; have := n.isLt; omega
  | ⟨2, _⟩ => show win1_0.index t (2 : Fin 3) * 128 + 1 * k.val = k.val; omega

theorem iblk1_1_apply (c : Dev nD) (t : Fin cfg1.N) (u : Fin 1) (k m : Fin 128) :
    iblk1 V c 1 t (ix3 u k m) = V c main_v12 (ix3 (bIdx t.val) k m) := by
  obtain ⟨-, -, -, e0, e1, e2, -⟩ := idx_facts1 t
  have ht : t.val < 64 := lt_of_lt_of_eq t.isLt N_1
  unfold iblk1
  rw [View.read_apply]
  show V c main_v12 _ = V c main_v12 _
  congr 1
  funext a; apply Fin.ext
  match a with
  | ⟨0, _⟩ => show win1_1.index t (0 : Fin 3) * 1 + 1 * u.val = t.val / 8 % 8; have := u.isLt; omega
  | ⟨1, _⟩ => show win1_1.index t (1 : Fin 3) * 128 + 1 * k.val = k.val; omega
  | ⟨2, _⟩ => show win1_1.index t (2 : Fin 3) * 128 + 1 * m.val = m.val; omega

/-- Each row of q times its batch entry's matrix. -/
def attend (q : S8x65536x128.Idx → EReal) (a : S8x128x128.Idx → EReal) : S8x65536x128.Idx → EReal :=
  fun i => ∑ k : Fin 128, q (ix3 (i 0) (i 1) k) * a (ix3 (i 0) k (i 2))

theorem attend_apply (q : S8x65536x128.Idx → EReal) (a : S8x128x128.Idx → EReal) (b : Fin 8) (r : Fin 65536) (m : Fin 128) :
    attend q a (ix3 b r m) = ∑ k : Fin 128, q (ix3 b r k) * a (ix3 b k m) := rfl

/-- What point `t` writes back is block `t` of that product. -/
theorem flushed_eq1 (c : Dev nD) (t : Fin cfg1.N) :
    (dat1 V c).flushed 2 t = ((cfg1.win 2).blk t).view.read (Elt Ideal) (attend (V c main_v0) (V c main_v12)) := by
  obtain ⟨-, -, -, -, -, -, e0, e1, e2⟩ := idx_facts1 t
  have ht : t.val < 64 := lt_of_lt_of_eq t.isLt N_1
  show (cfg1.win 2).cut (grid1.coords t) ((dat1 V c).after 2 t) = _
  rw [after1_2]
  unfold out1_2
  rw [View.canon_unit_zero hz3]
  simp only [View.ld_unit_zero (S := S1x8192x128) hz3, View.ld_unit_zero (S := S1x128x128) hz3]
  funext y
  obtain ⟨u, n, m, rfl⟩ : ∃ (u : Fin 1) (n : Fin 8192) (m : Fin 128), y = ix3 u n m := ⟨y 0, y 1, y 2, eq_ix3 y⟩
  have key : ∀ (G : S8x65536x128.Idx → EReal), ((cfg1.win 2).blk t).view.read (Elt Ideal) G (ix3 u n m)
      = G (((cfg1.win 2).blk t).view.emb (ix3 u n m)) := fun G => rfl
  refine Eq.trans ?_ (key (attend (V c main_v0) (V c main_v12))).symm
  refine (product_apply _ _ u n m).trans ?_
  have hemb : ((cfg1.win 2).blk t).view.emb (ix3 u n m) = ix3 (bIdx t.val) (rIdx (t.val % 8) n) m := by
    funext a; apply Fin.ext
    match a with
    | ⟨0, _⟩ => show win1_2.index t (0 : Fin 3) * 1 + 1 * u.val = t.val / 8 % 8; have := u.isLt; omega
    | ⟨1, _⟩ => show win1_2.index t (1 : Fin 3) * 8192 + 1 * n.val = (t.val % 8 * 8192 + n.val) % 65536; have := n.isLt; omega
    | ⟨2, _⟩ => show win1_2.index t (2 : Fin 3) * 128 + 1 * m.val = m.val; omega
  rw [hemb]
  refine Eq.trans ?_ (attend_apply (V c main_v0) (V c main_v12) (bIdx t.val) (rIdx (t.val % 8) n) m).symm
  refine Finset.sum_congr rfl fun k _ => ?_
  rw [iblk1_0_apply, iblk1_1_apply]

/-- Every index of the result array lies in the block of its batch entry and row tile. -/
theorem cover1 (i : S8x65536x128.Idx) : ∃ t : Fin cfg1.N, (cfg1.win 2).flush t = true ∧ i ∈ ((cfg1.win 2).blk t).view.set := by
  have hi0 : (i 0).val < 8 := (i 0).isLt
  have hi1 : (i 1).val < 65536 := (i 1).isLt
  have hi2 : (i 2).val < 128 := (i 2).isLt
  have hlt : 8 * (i 0).val + (i 1).val / 8192 < cfg1.N := by rw [show cfg1.N = 64 from N_1]; omega
  obtain ⟨-, -, -, -, -, -, e0, e1, e2⟩ := idx_facts1 ⟨8 * (i 0).val + (i 1).val / 8192, hlt⟩
  have e0' : win1_2.index ⟨8 * (i 0).val + (i 1).val / 8192, hlt⟩ (0 : Fin 3) = (i 0).val := by rw [e0]; show (8 * (i 0).val + (i 1).val / 8192) / 8 = _; omega
  have e1' : win1_2.index ⟨8 * (i 0).val + (i 1).val / 8192, hlt⟩ (1 : Fin 3) = (i 1).val / 8192 := by rw [e1]; show (8 * (i 0).val + (i 1).val / 8192) % 8 = _; omega
  refine ⟨⟨8 * (i 0).val + (i 1).val / 8192, hlt⟩, flush1_2 _, ?_⟩
  show i ∈ ((View.whole main_v13).slice (win1_2.rect ⟨8 * (i 0).val + (i 1).val / 8192, hlt⟩)).set
  rw [View.set_slice_whole, Rect.mem_set_unit]
  intro a
  match a with
  | ⟨0, _⟩ => show win1_2.index ⟨8 * (i 0).val + (i 1).val / 8192, hlt⟩ (0 : Fin 3) * 1 ≤ (i 0).val ∧ (i 0).val < win1_2.index ⟨8 * (i 0).val + (i 1).val / 8192, hlt⟩ (0 : Fin 3) * 1 + 1; rw [e0']; omega
  | ⟨1, _⟩ => show win1_2.index ⟨8 * (i 0).val + (i 1).val / 8192, hlt⟩ (1 : Fin 3) * 8192 ≤ (i 1).val ∧ (i 1).val < win1_2.index ⟨8 * (i 0).val + (i 1).val / 8192, hlt⟩ (1 : Fin 3) * 8192 + 8192; rw [e1']; omega
  | ⟨2, _⟩ => show win1_2.index ⟨8 * (i 0).val + (i 1).val / 8192, hlt⟩ (2 : Fin 3) * 128 ≤ (i 2).val ∧ (i 2).val < win1_2.index ⟨8 * (i 0).val + (i 1).val / 8192, hlt⟩ (2 : Fin 3) * 128 + 128; rw [e2]; omega

/-- So the second call's result array ends holding the product. -/
theorem out_final (c : Dev nD) : (dat1 V c).arrAt 2 cfg1.N = attend (V c main_v0) (V c main_v12) :=
  (dat1 V c).arrAt_eq_of_cover 2 (attend (V c main_v0) (V c main_v12)) (fun t _ => flushed_eq1 V c t) cover1

end Cert.KernelIdeal.Hand

end
-- ==== Proof.KernelIdeal.KernelValue.lean ====
/-
  The whole idealized kernel as one function of its argument x, at the ideal values. With q the reshape of x into
  [8, 65536, 128]: the first call leaves the Gram matrix q(b)^T q(b) of each batch entry, the host lines turn it into its
  row-wise softmax, the second call multiplies every row of q(b) by that matrix, and the last line reshapes the product
  back to x's shape.
-/
import proofs.«167569_j84155589197863_1_alg».proof.Proof.KernelIdeal.Run
import proofs.«167569_j84155589197863_1_alg».proof.Proof.KernelIdeal.EnergyValue
import proofs.«167569_j84155589197863_1_alg».proof.Proof.KernelIdeal.OutValue
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

open Idealize.ShloMosaic.StableHlo

section AnyValues

variable {F : FTy → Type} [FloatOps F]
variable (m : (ℓ : Loc nD τ sig) → Buf (Elt F) ℓ)

/-- The host lines between the two calls as one function: each row's maximum is subtracted, the exponential taken, and
    each row divided by its sum. -/
def softmaxRows (e : FVec F S8x128x128 .f32) : FVec F S8x128x128 .f32 :=
  Host.divf
    (Host.exp (subf e (broadcastInDim S8x128x128 ![0, 1, 2] bcast_S8x128x1_S8x128x128_0_1_2 (broadcastInDim S8x128x1 ![0, 1] bcast_S8x128_S8x128x1_0_1
      (maximumf (broadcastInDim S8x128 ![] bcast_S_S8x128 (constant S_ .f32 0xFF800000#32))
        (Host.reduce FloatOps.maximumf e (constant S_ .f32 0xFF800000#32) reducesTo_S8x128x128_S8x128_d2 h_S_))))))
    (broadcastInDim S8x128x128 ![0, 1, 2] bcast_S8x128x1_S8x128x128_0_1_2 (broadcastInDim S8x128x1 ![0, 1] bcast_S8x128_S8x128x1_0_1
      (Host.reduceAdd
        (Host.exp (subf e (broadcastInDim S8x128x128 ![0, 1, 2] bcast_S8x128x1_S8x128x128_0_1_2 (broadcastInDim S8x128x1 ![0, 1] bcast_S8x128_S8x128x1_0_1
          (maximumf (broadcastInDim S8x128 ![] bcast_S_S8x128 (constant S_ .f32 0xFF800000#32))
            (Host.reduce FloatOps.maximumf e (constant S_ .f32 0xFF800000#32) reducesTo_S8x128x128_S8x128_d2 h_S_))))))
        (constant S_ .f32 0x00000000#32) reducesTo_S8x128x128_S8x128_d2 h_S_)))

/-- q, as the first call finds it: the reshape of x. -/
theorem V1_v0 (c : Dev nD) :
    V1 m c main_v0 = shapeCast _ (m ((c : Thread nD τ).loc main_arg0)) shapeCasts_S8x64x32x32x128_S8x65536x128 := by
  show StableHlo.after hostOps0 (W0 m c) (Proc.devRef .tc main_v0) = _
  after_results <;> rfl

/-- The first call leaves q in place, and the host lines after it do not write q. -/
theorem V2_v0 (c : Dev nD) : V2 m c main_v0 = V1 m c main_v0 :=
  (W2_arr m c 0).trans (((dat0 (V1 m) c).arrAt_in 0 rfl _).trans (A_eq0 (V1 m) c 0))
theorem V3_v0 (c : Dev nD) : V3 m c main_v0 = V2 m c main_v0 :=
  StableHlo.after_of_writes_sub hostOps1 _ hostOps1_writes (by decide : main_v0 ∉ hostOps1_W)

/-- The attention matrices, as the second call finds them: the softmax of what the first call left. -/
theorem V3_v12 (c : Dev nD) : V3 m c main_v12 = softmaxRows (V2 m c main_v1) := by
  show StableHlo.after hostOps1 (W2 m c) (Proc.devRef .tc main_v12) = _
  after_results <;> rfl

/-- The result: the reshape of what the second call left. -/
theorem W5_v14 (c : Dev nD) :
    W5 m c (Proc.devRef .tc main_v14) = shapeCast _ (V4 m c main_v13) shapeCasts_S8x65536x128_S8x64x32x32x128 := by
  show StableHlo.after hostOps2 (W4 m c) (Proc.devRef .tc main_v14) = _
  after_results <;> rfl

end AnyValues

variable (m : (ℓ : Loc nD τ sig) → Buf (Elt Ideal) ℓ) (ρ : Dev nD → PrngReg)

theorem V2_v1 (c : Dev nD) : V2 m c main_v1 = gram (V1 m c main_v0) :=
  (W2_arr m c 1).trans (energy_final (V1 m) c)
theorem V4_v13 (c : Dev nD) : V4 m c main_v13 = attend (V3 m c main_v0) (V3 m c main_v12) :=
  (W4_arr m c 2).trans (out_final (V3 m) c)

/-- The kernel as a function of x. -/
def result (x : S8x64x32x32x128.Idx → EReal) : S8x64x32x32x128.Idx → EReal :=
  shapeCast S8x64x32x32x128
    (attend (shapeCast S8x65536x128 x shapeCasts_S8x64x32x32x128_S8x65536x128)
      (softmaxRows (F := Ideal) (gram (shapeCast S8x65536x128 x shapeCasts_S8x64x32x32x128_S8x65536x128))))
    shapeCasts_S8x65536x128_S8x64x32x32x128

theorem W5_result (c : Dev nD) : W5 m c (Proc.devRef .tc main_v14) = result (m ((c : Thread nD τ).loc main_arg0)) := by
  rw [W5_v14, V4_v13, V3_v12, V2_v1, V3_v0, V2_v0, V1_v0]
  rfl

/-- Every weakly fair execution of the idealized kernel terminates with its result at `result` of the argument and the
    argument unchanged. -/
theorem value_run : θ_run defs (onTc (τ := τ) (main (F := Ideal))) ⟨m, fun _ => 0, ρ⟩ (fun r => ∀ c : Dev nD,
      r.2.mem ((c.tc : Thread nD τ).loc main_v14) = result (m ((c.tc : Thread nD τ).loc main_arg0))
      ∧ r.2.mem ((c.tc : Thread nD τ).loc main_arg0) = m ((c.tc : Thread nD τ).loc main_arg0)) :=
  (θ_run defs _ _).mono (fun r h c => ⟨(h c _ (mem_uc main_v14 (by decide))).trans (W5_result m c),
      (h c _ (mem_uc main_arg0 (by decide))).trans (W5_main_arg0 m c)⟩) (run_all m ρ)

end Cert.KernelIdeal.Hand

end
-- ==== Proof.RefBridge.lean ====
/-
  The reference against the kernel's function. The reference computes, on the host, the batched product q^T q
  (contracting the 65536 rows), the same row-wise softmax lines, and the batched product of q with the result. At the
  ideal values a host product read at an entry is the sum over the contracted coordinate of the operands' products,
  which is entry by entry the Gram matrix and the row-by-matrix product the kernel's two calls leave; the softmax lines
  are the same operations on both sides.
-/
import proofs.«167569_j84155589197863_1_alg».proof.Proof.Gen.ReferenceIdeal.Run
import proofs.«167569_j84155589197863_1_alg».proof.Proof.Gen.ReferenceIdeal.Read
import proofs.«167569_j84155589197863_1_alg».proof.Proof.KernelIdeal.KernelValue

noncomputable section

namespace Cert.ReferenceIdeal.RefValue

open Cert.ReferenceIdeal Cert.ReferenceIdeal.Gen Cert.ReferenceIdeal.Read
open Idealize.ShloMosaic Idealize.ShloMosaic.TcCoe Idealize.SL.Sem

/-- The reference's first product at an entry: the sum over the 65536 rows. -/
theorem dot1_apply (y : FVec Ideal S8x65536x128 .f32) (i : S8x128x128.Idx) :
    Host.dotGeneral (F := Ideal) dot_S8x65536x128_S8x65536x128_S8x128x128_1_1_2_2_0_0 none y y i
      = ∑ k : Fin 65536, y (lidx_main_v1 i k) * y (ridx_main_v1 i k) := by
  simp only [Host.dotGeneral]
  rw [Ideal.dotGeneral_apply, ← Equiv.sum_comp (ValueIdx.contrEquiv1 dot_S8x65536x128_S8x65536x128_S8x128x128_1_1_2_2_0_0 65536 rfl rfl).symm]
  refine Finset.sum_congr rfl fun k _ => ?_
  have hk := ValueIdx.contrEquiv1_symm_val dot_S8x65536x128_S8x65536x128_S8x128x128_1_1_2_2_0_0 65536 rfl rfl k
  have el : dot_S8x65536x128_S8x65536x128_S8x128x128_1_1_2_2_0_0.lhsIdx i ((ValueIdx.contrEquiv1 dot_S8x65536x128_S8x65536x128_S8x128x128_1_1_2_2_0_0 65536 rfl rfl).symm k) = lidx_main_v1 i k := funext fun a => Fin.ext (by
    match a with
    | ⟨0, _⟩ => exact lhs_main_v1_0 _ _
    | ⟨1, _⟩ => exact (lhs_main_v1_1 _ _).trans hk
    | ⟨2, _⟩ => exact lhs_main_v1_2 _ _)
  have er : dot_S8x65536x128_S8x65536x128_S8x128x128_1_1_2_2_0_0.rhsIdx i ((ValueIdx.contrEquiv1 dot_S8x65536x128_S8x65536x128_S8x128x128_1_1_2_2_0_0 65536 rfl rfl).symm k) = ridx_main_v1 i k := funext fun a => Fin.ext (by
    match a with
    | ⟨0, _⟩ => exact rhs_main_v1_0 _ _
    | ⟨1, _⟩ => exact (rhs_main_v1_1 _ _).trans hk
    | ⟨2, _⟩ => exact rhs_main_v1_2 _ _)
  rw [el, er]

/-- The reference's second product at an entry: the sum over the 128 columns of q. -/
theorem dot2_apply (y0 : FVec Ideal S8x65536x128 .f32) (y1 : FVec Ideal S8x128x128 .f32) (i : S8x65536x128.Idx) :
    Host.dotGeneral (F := Ideal) dot_S8x65536x128_S8x128x128_S8x65536x128_2_1_1_2_0_0 none y0 y1 i
      = ∑ k : Fin 128, y0 (lidx_main_v13 i k) * y1 (ridx_main_v13 i k) := by
  simp only [Host.dotGeneral]
  rw [Ideal.dotGeneral_apply, ← Equiv.sum_comp (ValueIdx.contrEquiv1 dot_S8x65536x128_S8x128x128_S8x65536x128_2_1_1_2_0_0 128 rfl rfl).symm]
  refine Finset.sum_congr rfl fun k _ => ?_
  have hk := ValueIdx.contrEquiv1_symm_val dot_S8x65536x128_S8x128x128_S8x65536x128_2_1_1_2_0_0 128 rfl rfl k
  have el : dot_S8x65536x128_S8x128x128_S8x65536x128_2_1_1_2_0_0.lhsIdx i ((ValueIdx.contrEquiv1 dot_S8x65536x128_S8x128x128_S8x65536x128_2_1_1_2_0_0 128 rfl rfl).symm k) = lidx_main_v13 i k := funext fun a => Fin.ext (by
    match a with
    | ⟨0, _⟩ => exact lhs_main_v13_0 _ _
    | ⟨1, _⟩ => exact lhs_main_v13_1 _ _
    | ⟨2, _⟩ => exact (lhs_main_v13_2 _ _).trans hk)
  have er : dot_S8x65536x128_S8x128x128_S8x65536x128_2_1_1_2_0_0.rhsIdx i ((ValueIdx.contrEquiv1 dot_S8x65536x128_S8x128x128_S8x65536x128_2_1_1_2_0_0 128 rfl rfl).symm k) = ridx_main_v13 i k := funext fun a => Fin.ext (by
    match a with
    | ⟨0, _⟩ => exact rhs_main_v13_0 _ _
    | ⟨1, _⟩ => exact (rhs_main_v13_1 _ _).trans hk
    | ⟨2, _⟩ => exact rhs_main_v13_2 _ _)
  rw [el, er]

/-- The first product is the Gram matrix of each batch entry. -/
theorem dot1_eq (y : FVec Ideal S8x65536x128 .f32) :
    Host.dotGeneral (F := Ideal) dot_S8x65536x128_S8x65536x128_S8x128x128_1_1_2_2_0_0 none y y = Cert.KernelIdeal.Hand.gram y := by
  funext i
  rw [dot1_apply]
  show _ = ∑ k : Fin 65536, y (ValueIdx.ix3 (i 0) k (i 1)) * y (ValueIdx.ix3 (i 0) k (i 2))
  refine Finset.sum_congr rfl fun k _ => ?_
  have el : lidx_main_v1 i k = ValueIdx.ix3 (i 0) k (i 1) := funext fun a => by
    match a with
    | ⟨0, _⟩ => rfl
    | ⟨1, _⟩ => rfl
    | ⟨2, _⟩ => rfl
  have er : ridx_main_v1 i k = ValueIdx.ix3 (i 0) k (i 2) := funext fun a => by
    match a with
    | ⟨0, _⟩ => rfl
    | ⟨1, _⟩ => rfl
    | ⟨2, _⟩ => rfl
  rw [el, er]
  rfl

/-- The second product is each row of q times its batch entry's matrix. -/
theorem dot2_eq (y0 : FVec Ideal S8x65536x128 .f32) (y1 : FVec Ideal S8x128x128 .f32) :
    Host.dotGeneral (F := Ideal) dot_S8x65536x128_S8x128x128_S8x65536x128_2_1_1_2_0_0 none y0 y1 = Cert.KernelIdeal.Hand.attend y0 y1 := by
  funext i
  rw [dot2_apply]
  show _ = ∑ k : Fin 128, y0 (ValueIdx.ix3 (i 0) (i 1) k) * y1 (ValueIdx.ix3 (i 0) k (i 2))
  refine Finset.sum_congr rfl fun k _ => ?_
  have el : lidx_main_v13 i k = ValueIdx.ix3 (i 0) (i 1) k := funext fun a => by
    match a with
    | ⟨0, _⟩ => rfl
    | ⟨1, _⟩ => rfl
    | ⟨2, _⟩ => rfl
  have er : ridx_main_v13 i k = ValueIdx.ix3 (i 0) k (i 2) := funext fun a => by
    match a with
    | ⟨0, _⟩ => rfl
    | ⟨1, _⟩ => rfl
    | ⟨2, _⟩ => rfl
  rw [el, er]
  rfl

/-- The reference's result, as a function of x, is the kernel's. -/
theorem ref_eq (x : (⟨S8x64x32x32x128, .f32⟩ : BufTy).Contents (Elt Ideal)) :
    val_main_v14 (F := Ideal) x = Cert.KernelIdeal.Hand.result x := by
  unfold Cert.KernelIdeal.Hand.result
  rw [← dot1_eq, ← dot2_eq]
  rfl

end Cert.ReferenceIdeal.RefValue

end
-- ==== Proof.lean ====
/-
  The certificate's claims assembled. Both printed kernels run to the end with the argument unchanged (the program as
  five segments, each pallas_call's body obligation proved point by point); the reference's frame is its run; the ideal
  pass rewrote nothing; and at the ideal values the idealized kernel and the reference end with the same function of an
  argument they agree on: softmax(q^T q) applied to the rows of q, q the reshape of x.
-/
import proofs.«167569_j84155589197863_1_alg».proof.Defs
import proofs.«167569_j84155589197863_1_alg».proof.Proof.Gen.Kernel
import proofs.«167569_j84155589197863_1_alg».proof.Proof.Gen.KernelIdeal
import proofs.«167569_j84155589197863_1_alg».proof.Proof.Gen.ReferenceIdeal
import proofs.«167569_j84155589197863_1_alg».proof.Proof.Gen.Pre_finite_inputs
import proofs.«167569_j84155589197863_1_alg».proof.Proof.Kernel.Run
import proofs.«167569_j84155589197863_1_alg».proof.Proof.KernelIdeal.KernelValue
import proofs.«167569_j84155589197863_1_alg».proof.Proof.RefBridge

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The idealized kernel's result ends at `result` of its argument; the reference's at its operations' term of an
    argument that agrees, which is the same function. -/
theorem algebraic : Cert.algebraic_KernelIdeal_ReferenceIdeal := by
  intro m ρ m' ρ' _ hagree
  refine ⟨fun c => Cert.KernelIdeal.Hand.result (m ((c.tc : Thread Cert.KernelIdeal.nD Cert.KernelIdeal.τ).loc Cert.KernelIdeal.main_arg0)),
    Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact (Cert.ReferenceIdeal.Read.val_main_v14_eq _).trans (Cert.ReferenceIdeal.RefValue.ref_eq _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
